-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S512x512 : Shape := ⟨2, ![512, 512]⟩
abbrev S512x1 : Shape := ⟨2, ![512, 1]⟩
abbrev S512 : Shape := ⟨1, ![512]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 5
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x1, .f32⟩
  | .hbm, ⟨3, _⟩ => ⟨S1x8192, .f32⟩
  | .hbm, ⟨4, _⟩ => ⟨S8192x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let arg1 : BitVec 32 := BitVec.ofNat 32 (i 1).val
  let v4 : BitVec 1 := Scalar.cmpi .eq arg0 arg1
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let arg1 : BitVec 32 := BitVec.ofNat 32 (i 1).val
  let v7 : BitVec 1 := Scalar.cmpi .ne arg0 arg1
  let v8 : BitVec 32 := Scalar.extui v7
  let c0_i32_3 : BitVec 32 := 0#32
  let v9 : BitVec 1 := Scalar.cmpi .ne v8 c0_i32_3
  v9

def k0_cond5 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  iota_S512x512_d0_w32 : S512x512.Iotas .tc 32 [0]
  iota_S512x512_d1_w32 : S512x512.Iotas .tc 32 [1]
  shapeCasts_S512x512_S512x512 : S512x512.ShapeCasts S512x512
  reduces_S512x512_S512 : S512x512.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S8192x1_S1x8192 : S8192x1.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond5 i == 1#1) | ⟨_ + 4, h⟩ => absurd h (Nat.not_lt.2 (Nat.le_add_left _ _))

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.RegionData.lean ====
/-
  The proof data of the two kernel regions, in closed form over the bodies' arithmetic.

  Region 0 walks a 16 × 16 grid of 512 × 512 tiles, row-major (point t is tile (t / 16, t % 16)).  At point t it
  forms the symmetrised tile max(adj[i,j], adj[j,i]ᵀ) — with ones on the diagonal exactly when the tile is a
  diagonal one, i.e. t % 17 = 0 — writes it out, and adds its row sums into a scratch column that is restarted at the
  first tile of each tile-row (t % 16 = 0); at the last tile of the row (t % 16 = 15) the reciprocal square root of
  the accumulated column is written out.  Region 1 walks an 8 × 8 grid of 1024 × 1024 tiles and scales each entry by
  its row's and its column's factor.
-/
import proofs.«155517_j2216203125144_2_alg».proof.Proof.Gen.KernelIdeal.Launch
import proofs.«155517_j2216203125144_2_alg».proof.Proof.Gen.KernelIdeal.Skeleton
import proofs.«155517_j2216203125144_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The symmetrised tile at point `t`: ones on its diagonal exactly at the diagonal tiles. -/
def symTile (c : Dev nD) (t : Fin cfg0.N) : Vec F S512x512 .f32 :=
  if t.val % 17 = 0 then k0_pay2 (iblk0 V c 0 t) (iblk0 V c 1 t) else k0_pay1 (iblk0 V c 0 t) (iblk0 V c 1 t)

/-- The running column of row sums after point `n`: restarted at the first tile of each tile-row. -/
def accCol (c : Dev nD) : (n : ℕ) → n < cfg0.N → Vec F S512x1 .f32
  | 0, hn => k0_pay4 (symTile V c ⟨0, hn⟩)
  | n + 1, hn =>
    if (n + 1) % 16 = 0 then k0_pay4 (symTile V c ⟨n + 1, hn⟩)
    else k0_pay5 (symTile V c ⟨n + 1, hn⟩) (accCol c n (Nat.lt_of_succ_lt hn))

theorem accCol_start (c : Dev nD) (t : Fin cfg0.N) (h : t.val % 16 = 0) :
    accCol V c t.val t.isLt = k0_pay4 (symTile V c t) := by
  obtain ⟨n, hn⟩ := t
  cases n with
  | zero => rfl
  | succ n => exact (if_pos h).trans rfl

theorem accCol_step (c : Dev nD) (t : Fin cfg0.N) (h : ¬ t.val % 16 = 0) :
    accCol V c t.val t.isLt = k0_pay5 (symTile V c t) (accCol V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch column as a memref. -/
abbrev scM0 : Memref sig .tc .vmem S512x1 .f32 := Memref.whole cc0_scratch0

/-- The scoped buffers region 0 never touches (region 1's staging buffers), each at some contents. -/
def restB0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch invariant of region 0 with the scratch column spelt as a memref. -/
theorem PhiA0_eq (c : Dev nD) :
    (Pipeline.ΦA spec0 c : sProp 𝕄)
      = iprop(iprop((∃ d, owns (c : Thread nD τ) scM0 fullShare d) ∗ restB0 c) ∗ (∃ r, prngReg c r)) := by
  unfold Pipeline.ΦA restB0; rw [scopedRest0_eq]; simp only [scM0, owns_whole]; try rfl

/-- Region 0's invariant before position `n`: at the start the launch invariant; afterwards the scratch column at
    the running sums the point before left. -/
def PhiS0 (c : Dev nD) : (n : ℕ) → n ≤ cfg0.N → sProp 𝕄
  | 0, _ => Pipeline.ΦA spec0 c
  | n + 1, hn => iprop(iprop(owns (c : Thread nD τ) scM0 fullShare (accCol V c n hn) ∗ restB0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accCol V c n hn) ∗ restB0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accCol V c (n - 1) (by omega)) ∗ restB0 c) ∗ (∃ r, prngReg c r)) := by
  cases n with
  | zero => exact absurd rfl hz
  | succ n => rfl

/-- The two input windows read one array: each holds half of it. -/
def q0 : Fin cfg0.W → PosShare TreeShare
  | ⟨0, _⟩ => fullShare.left
  | ⟨1, _⟩ => fullShare.right
  | ⟨2, _⟩ => fullShare
  | ⟨3, _⟩ => fullShare

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => symTile V c t
    | ⟨3, _⟩ => k0_pay6 (accCol V c t.val t.isLt)
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = symTile V c t := by dsimp only [dat0]
theorem after0_3 (c : Dev nD) (t : Fin cfg0.N) : (dat0 V c).after 3 t = k0_pay6 (accCol V c t.val t.isLt) := by dsimp only [dat0]

/-! ## Region 1 -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the scaled tile from the three input tiles. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 0 t) (iblk1 V c 1 t) (iblk1 V c 2 t) := by dsimp only [dat1]

end Regions

end Cert.KernelIdeal.Gen

end
-- ==== Proof.Body0Runs.lean ====
/-
  What the six control cases of region 0's body share: the five branch conditions in closed form over the grid,
  where the two output windows are idle, and the staging memrefs at a point.

  Point t of the 16 × 16 grid is tile (t / 16, t % 16).  The tile is a diagonal one exactly when t % 17 = 0; the
  scratch column is restarted when t % 16 = 0 and added to otherwise; the reciprocal square roots are written at
  t % 16 = 15.
-/
import proofs.«155517_j2216203125144_2_alg».proof.Proof.RegionData
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The tile is on the diagonal. -/
abbrev cond0_0 (i : grid0.Coords) : Prop := k0_cond1 i = 1#1
theorem hcond0_0 : ∀ t : Fin cfg0.N, cond0_0 (grid0.coords t) ↔ t.val % 17 = 0 :=
  (by decide +kernel : ∀ t : Fin grid0.N, cond0_0 (grid0.coords t) ↔ t.val % 17 = 0)

/-- The tile is off the diagonal. -/
abbrev cond0_1 (i : grid0.Coords) : Prop := k0_cond2 i = 1#1
theorem hcond0_1 : ∀ t : Fin cfg0.N, cond0_1 (grid0.coords t) ↔ ¬ t.val % 17 = 0 :=
  (by decide +kernel : ∀ t : Fin grid0.N, cond0_1 (grid0.coords t) ↔ ¬ t.val % 17 = 0)

/-- The tile is the first of its tile-row. -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 16 = 0 :=
  (by decide +kernel : ∀ t : Fin grid0.N, cond0_2 (grid0.coords t) ↔ t.val % 16 = 0)

/-- The tile is not the first of its tile-row. -/
abbrev cond0_3 (i : grid0.Coords) : Prop := (Scalar.cmpi .ne (Scalar.extui (Scalar.cmpi .ne (BitVec.ofNat 32 (i 1).val) 0#32)) 0#32) = 1#1
theorem hcond0_3 : ∀ t : Fin cfg0.N, cond0_3 (grid0.coords t) ↔ ¬ t.val % 16 = 0 :=
  (by decide +kernel : ∀ t : Fin grid0.N, cond0_3 (grid0.coords t) ↔ ¬ t.val % 16 = 0)

/-- The tile is the last of its tile-row. -/
abbrev cond0_4 (i : grid0.Coords) : Prop := k0_cond5 i = 1#1
theorem hcond0_4 : ∀ t : Fin cfg0.N, cond0_4 (grid0.coords t) ↔ t.val % 16 = 15 :=
  (by decide +kernel : ∀ t : Fin grid0.N, cond0_4 (grid0.coords t) ↔ t.val % 16 = 15)

/-! ## Where the windows are idle -/

/-- The symmetrised tile is stored at every point: one of the two first branches is taken. -/
theorem liveAt0_2 : ∀ t : Fin cfg0.N, cfg0.idle 2 (grid0.coords t) = false := by decide +kernel
/-- Away from the last tile of a tile-row nothing is stored into the column output, -/
theorem idleAt0_3 : ∀ t : Fin cfg0.N, ¬ t.val % 16 = 15 → cfg0.idle 3 (grid0.coords t) = true := by decide +kernel
/-- and its block is not written back there; -/
theorem noFlush0_3 : ∀ t : Fin cfg0.N, ¬ t.val % 16 = 15 → (cfg0.win 3).flush t = false := by decide +kernel
/-- at the last tile of a tile-row it is stored. -/
theorem liveAt0_3 : ∀ t : Fin cfg0.N, t.val % 16 = 15 → cfg0.idle 3 (grid0.coords t) = false := by decide +kernel

/-! ## The staging memrefs at a point -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

/-! ## Whole-buffer loads and stores read back -/

theorem hz2 : (![0, 0] : Fin 2 → Nat) = fun _ => 0 := funext fun a => by fin_cases a <;> rfl

/-- A tile buffer after ONE store of the whole tile holds the stored tile, whatever it held before. -/
theorem read_store_T {sg : RefSig} {κ : Kind} {sp : Space} (v : View sg κ sp S512x512 .f32) (f : v.ty.Contents (Elt F)) (w : Vec F S512x512 .f32) :
    v.read (Elt F) (v.writes (Elt F) f [⟨(Rect.unit (s := S512x512) ![0, 0] S512x512.size inb_S512x512_S512x512_0_0), w⟩]) = w := by
  rw [View.read_writes_eq_canon _ _ _ (fun y => ⟨_, List.mem_singleton_self _, View.mem_set_unit_zero hz2 inb_S512x512_S512x512_0_0 y⟩), View.canon_unit_zero hz2]

/-- The same for a column buffer. -/
theorem read_store_C {sg : RefSig} {κ : Kind} {sp : Space} (v : View sg κ sp S512x1 .f32) (f : v.ty.Contents (Elt F)) (w : Vec F S512x1 .f32) :
    v.read (Elt F) (v.writes (Elt F) f [⟨(Rect.unit (s := S512x1) ![0, 0] S512x1.size inb_S512x1_S512x1_0_0), w⟩]) = w := by
  rw [View.read_writes_eq_canon _ _ _ (fun y => ⟨_, List.mem_singleton_self _, View.mem_set_unit_zero hz2 inb_S512x1_S512x1_0_0 y⟩), View.canon_unit_zero hz2]

/-- A load of the whole tile after one store of the whole tile reads the stored tile. -/
theorem readCov_T {sg : RefSig} {κ : Kind} {sp : Space} (v : View sg κ sp S512x512 .f32) (w : Vec F S512x512 .f32) :
    v.readCov [(⟨(Rect.unit (s := S512x512) ![0, 0] S512x512.size inb_S512x512_S512x512_0_0), w⟩ : View.Piece (Elt F) S512x512 .f32)] (Rect.unit (s := S512x512) ![0, 0] S512x512.size inb_S512x512_S512x512_0_0).toLoadRect = w :=
  View.readCov_unit_zero v hz2 _ w

/-- The same for a column buffer. -/
theorem readCov_C {sg : RefSig} {κ : Kind} {sp : Space} (v : View sg κ sp S512x1 .f32) (w : Vec F S512x1 .f32) :
    v.readCov [(⟨(Rect.unit (s := S512x1) ![0, 0] S512x1.size inb_S512x1_S512x1_0_0), w⟩ : View.Piece (Elt F) S512x1 .f32)] (Rect.unit (s := S512x1) ![0, 0] S512x1.size inb_S512x1_S512x1_0_0).toLoadRect = w :=
  View.readCov_unit_zero v hz2 _ w

/-- A load of the whole of a whole tile buffer reads its contents. -/
theorem readAt_T {sg : RefSig} {κ : Kind} {sp : Space} (m : Memref sg κ sp S512x512 .f32) (h : m.IsWhole) (x : Vec F S512x512 .f32) :
    View.readAt (Elt F) m.view (Rect.unit (s := S512x512) ![0, 0] S512x512.size inb_S512x512_S512x512_0_0).toLoadRect (h.unread x) = x := by
  rw [View.readAt_eq_ld, h.read_unread, View.ld_unit_zero (S := S512x512) hz2]

/-- The same for a column buffer. -/
theorem readAt_C {sg : RefSig} {κ : Kind} {sp : Space} (m : Memref sg κ sp S512x1 .f32) (h : m.IsWhole) (x : Vec F S512x1 .f32) :
    View.readAt (Elt F) m.view (Rect.unit (s := S512x1) ![0, 0] S512x1.size inb_S512x1_S512x1_0_0).toLoadRect (h.unread x) = x := by
  rw [View.readAt_eq_ld, h.read_unread, View.ld_unit_zero (S := S512x1) hz2]

end Cert.KernelIdeal.Gen

end
-- ==== Proof.Body0RunA.lean ====
/-
  Region 0's body run whole in the control case "diagonal tile, first tile of its tile-row" (point 0).
  On whole buffers — the two input tiles at x0, x1, the tile output at anything, the column output at contents handed back untouched, the
  scratch column at anything — the body leaves the inputs as they were, the tile output at
  max(x0, x1ᵀ) with ones on the diagonal, the scratch column at that tile's row sums.
-/
import proofs.«155517_j2216203125144_2_alg».proof.Proof.Body0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : cond0_2 i) (hc3 : ¬cond0_3 i) (hc4 : ¬cond0_4 i)
    (x0 x1 : Vec F S512x512 .f32) (xi3 : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare xi3 ∗ owns (c : Thread nD τ) arg6 fullShare (k0_pay4 (k0_pay2 x0 x1))) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1]

end Cert.KernelIdeal.Gen

end
-- ==== Proof.Body0RunB.lean ====
/-
  Region 0's body run whole in the control case "off-diagonal tile, neither first nor last tile of its tile-row" (the points with t % 17 ≠ 0 and 0 < t % 16 < 15).
  On whole buffers — the two input tiles at x0, x1, the tile output at anything, the column output at contents handed back untouched, the
  scratch column at the running sums xs the point before left — the body leaves the inputs as they were, the tile output at
  max(x0, x1ᵀ), the scratch column at xs plus that tile's row sums.
-/
import proofs.«155517_j2216203125144_2_alg».proof.Proof.Body0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : ¬cond0_2 i) (hc3 : cond0_3 i) (hc4 : ¬cond0_4 i)
    (x0 x1 : Vec F S512x512 .f32) (xi3 : Vec F S512x1 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare xi3 ∗ owns (c : Thread nD τ) arg6 fullShare (k0_pay5 (k0_pay1 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1, readAt_C arg6 harg6 xs]

end Cert.KernelIdeal.Gen

end
-- ==== Proof.Body0RunC.lean ====
/-
  Region 0's body run whole in the control case "off-diagonal tile, last tile of its tile-row" (the points with t % 16 = 15 but 255).
  On whole buffers — the two input tiles at x0, x1, the tile output at anything, the column output at anything, the
  scratch column at the running sums xs the point before left — the body leaves the inputs as they were, the tile output at
  max(x0, x1ᵀ), the scratch column at xs plus that tile's row sums, and the column output at the reciprocal square roots of the scratch column.
-/
import proofs.«155517_j2216203125144_2_alg».proof.Proof.Body0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_C (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : ¬cond0_2 i) (hc3 : cond0_3 i) (hc4 : cond0_4 i)
    (x0 x1 : Vec F S512x512 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare (k0_pay6 (k0_pay5 (k0_pay1 x0 x1) xs)) ∗ owns (c : Thread nD τ) arg6 fullShare (k0_pay5 (k0_pay1 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr
    swap; · iexact H3
    ipureintro
    (try sl_unfold_words)
    rw [read_store_C, readCov_C, readCov_T, readAt_T arg2 harg2 x0, readAt_T arg3 harg3 x1, readAt_C arg6 harg6 xs]
  iexists _; isplitr
  swap; · iexact HS
  ipureintro
  (try sl_unfold_words)
  rw [read_store_C, readCov_T, readAt_T arg2 harg2 x0, readAt_T arg3 harg3 x1, readAt_C arg6 harg6 xs]

end Cert.KernelIdeal.Gen

end
-- ==== Proof.Body0RunD.lean ====
/-
  Region 0's body run whole in the control case "off-diagonal tile, first tile of its tile-row" (the points with t % 16 = 0 but 0).
  On whole buffers — the two input tiles at x0, x1, the tile output at anything, the column output at contents handed back untouched, the
  scratch column at anything — the body leaves the inputs as they were, the tile output at
  max(x0, x1ᵀ), the scratch column at that tile's row sums.
-/
import proofs.«155517_j2216203125144_2_alg».proof.Proof.Body0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_D (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : cond0_2 i) (hc3 : ¬cond0_3 i) (hc4 : ¬cond0_4 i)
    (x0 x1 : Vec F S512x512 .f32) (xi3 : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare xi3 ∗ owns (c : Thread nD τ) arg6 fullShare (k0_pay4 (k0_pay1 x0 x1))) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1]

end Cert.KernelIdeal.Gen

end
-- ==== Proof.Body0RunE.lean ====
/-
  Region 0's body run whole in the control case "diagonal tile, neither first nor last tile of its tile-row" (the points 17, 34, …, 238).
  On whole buffers — the two input tiles at x0, x1, the tile output at anything, the column output at contents handed back untouched, the
  scratch column at the running sums xs the point before left — the body leaves the inputs as they were, the tile output at
  max(x0, x1ᵀ) with ones on the diagonal, the scratch column at xs plus that tile's row sums.
-/
import proofs.«155517_j2216203125144_2_alg».proof.Proof.Body0RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_E (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : ¬cond0_2 i) (hc3 : cond0_3 i) (hc4 : ¬cond0_4 i)
    (x0 x1 : Vec F S512x512 .f32) (xi3 : Vec F S512x1 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare xi3 ∗ owns (c : Thread nD τ) arg6 fullShare (k0_pay5 (k0_pay2 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1, readAt_C arg6 harg6 xs]

end Cert.KernelIdeal.Gen

end
-- ==== Proof.Body0RunF.lean ====
/-
  Region 0's body run whole in the control case "diagonal tile, last tile of its tile-row" (point 255).
  On whole buffers — the two input tiles at x0, x1, the tile output at anything, the column output at anything, the
  scratch column at the running sums xs the point before left — the body leaves the inputs as they were, the tile output at
  max(x0, x1ᵀ) with ones on the diagonal, the scratch column at xs plus that tile's row sums, and the column output at the reciprocal square roots of the scratch column.
-/
import proofs.«155517_j2216203125144_2_alg».proof.Proof.Body0RunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_F (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : ¬cond0_2 i) (hc3 : cond0_3 i) (hc4 : cond0_4 i)
    (x0 x1 : Vec F S512x512 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare (k0_pay6 (k0_pay5 (k0_pay2 x0 x1) xs)) ∗ owns (c : Thread nD τ) arg6 fullShare (k0_pay5 (k0_pay2 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr
    swap; · iexact H3
    ipureintro
    (try sl_unfold_words)
    rw [read_store_C, readCov_C, readCov_T, readAt_T arg2 harg2 x0, readAt_T arg3 harg3 x1, readAt_C arg6 harg6 xs]
  iexists _; isplitr
  swap; · iexact HS
  ipureintro
  (try sl_unfold_words)
  rw [read_store_C, readCov_T, readAt_T arg2 harg2 x0, readAt_T arg3 harg3 x1, readAt_C arg6 harg6 xs]

end Cert.KernelIdeal.Gen

end
-- ==== Proof.Body0.lean ====
/-
  Region 0's body obligation.

  At point t of the 16 × 16 grid the body finds the two input windows' buffers at their tiles (both are fetched at
  every point), forms the symmetrised tile — with ones on its diagonal exactly when t % 17 = 0 — and leaves it in
  the tile output's buffer; the scratch column is restarted at that tile's row sums when t % 16 = 0 and otherwise
  has them added to what the point before left; at t % 16 = 15 the column output's buffer is left at the reciprocal
  square roots of the scratch column, and at every other point it is handed back as it was found.  The three
  residues leave six control cases (a diagonal tile that is first of its row is point 0 only, and no tile is both
  first and last of its row); each is the whole-body run of that case, with the invariant handing the body the
  scratch column at the running sums of the point before and taking it back at this point's.
-/
import proofs.«155517_j2216203125144_2_alg».proof.Proof.Body0RunF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its tile at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds the transposed position's tile at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## What the body leaves in each window's buffer -/

/-- The two input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- Input window 0's buffer is left at its tile. -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
/-- Input window 1's buffer is left at its tile. -/
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
/-- The tile output's buffer is left at the symmetrised tile. -/
theorem leaves0_2 (c : Dev nD) (t : Fin cfg0.N) :
    (dat0 V c).leavesExact 2 t = owns (c : Thread nD τ) (ms0_2 t) fullShare (symTile V c t) := by
  unfold Dat.leavesExact; rw [liveAt0_2 t, after0_2]
/-- At the last tile of a tile-row the column output's buffer is left at the reciprocal square roots of the running sums. -/
theorem leaves0_3_live (c : Dev nD) (t : Fin cfg0.N) (h : t.val % 16 = 15) :
    (dat0 V c).leavesExact 3 t = owns (c : Thread nD τ) (ms0_3 t) fullShare (k0_pay6 (accCol V c t.val t.isLt)) := by
  unfold Dat.leavesExact; rw [liveAt0_3 t h, after0_3]

/-- The symmetrised tile at a diagonal tile, -/
theorem symTile_diag (c : Dev nD) (t : Fin cfg0.N) (h : t.val % 17 = 0) :
    symTile V c t = k0_pay2 (iblk0 V c 0 t) (iblk0 V c 1 t) := if_pos h
/-- and off the diagonal. -/
theorem symTile_off (c : Dev nD) (t : Fin cfg0.N) (h : ¬ t.val % 17 = 0) :
    symTile V c t = k0_pay1 (iblk0 V c 0 t) (iblk0 V c 1 t) := if_neg h

/-! ## The invariant at a point's two ends -/

/-- The invariant at a point's start, restated at the point's number. -/
theorem PhiS0_castSucc (c : Dev nD) (t : Fin cfg0.N) :
    (dat0 V c).Φ t.castSucc = PhiS0 V c t.val (Nat.le_of_lt t.isLt) := rfl

/-- What the launch hands the region is the invariant before the first point. -/
theorem hin0 (c : Dev nD) : Pipeline.ΦA spec0 c ⊢ (dat0 (F := F) V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the scratch column's named contents
    are forgotten. -/
theorem Phi_out0 (c : Dev nD) (t : Fin (cfg0.N + 1)) (ht : t.val ≠ 0) : (dat0 (F := F) V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 (F := F) V c).Φ (Fin.last cfg0.N) ⊢ Pipeline.ΦA spec0 c :=
  Phi_out0 V c _ (by rw [Fin.val_last]; have : cfg0.N = 256 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at a point that is a diagonal tile, the first of its tile-row. -/
theorem sound_body0_A (c : Dev nD) (t : Fin cfg0.N) (h17 : t.val % 17 = 0) (h0 : t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_start V c t h0]
  rw [symTile_diag V c t h17]
  have hz : t.val = 0 := by omega
  rw [PhiS0_castSucc V c t, PhiS0_zero V c _ _ hz, PhiA0_eq]
  iintro ⟨⟨⟨HS, HR⟩, Hg⟩, Ho, ⟨%d0, H0⟩, ⟨%d1, H1⟩, ⟨%d2, H2⟩, ⟨%d3, H3⟩⟩
  iapply (kernelRun0_A c (grid0.coords t) _ _ _ _ _ _ _ _ _ _ ((hcond0_0 t).mpr h17) (fun h => (hcond0_1 t).mp h h17) ((hcond0_2 t).mpr h0) (fun h => (hcond0_3 t).mp h h0) (fun h => h15 ((hcond0_4 t).mp h)) (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is an off-diagonal tile, neither the first nor the last of its tile-row. -/
theorem sound_body0_B (c : Dev nD) (t : Fin cfg0.N) (h17 : ¬ t.val % 17 = 0) (h0 : ¬ t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_step V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_B c (grid0.coords t) _ _ _ _ _ _ _ _ _ _ (fun h => h17 ((hcond0_0 t).mp h)) ((hcond0_1 t).mpr h17) (fun h => h0 ((hcond0_2 t).mp h)) ((hcond0_3 t).mpr h0) (fun h => h15 ((hcond0_4 t).mp h)) (iblk0 V c 0 t) (iblk0 V c 1 t) ((dat0 V c).before 3 t d3) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is an off-diagonal tile, the last of its tile-row. -/
theorem sound_body0_C (c : Dev nD) (t : Fin cfg0.N) (h17 : ¬ t.val % 17 = 0) (h0 : ¬ t.val % 16 = 0) (h15 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [leaves0_3_live V c t h15]
  rw [accCol_step V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_C c (grid0.coords t) _ _ _ _ _ _ _ _ _ _ (fun h => h17 ((hcond0_0 t).mp h)) ((hcond0_1 t).mpr h17) (fun h => h0 ((hcond0_2 t).mp h)) ((hcond0_3 t).mpr h0) ((hcond0_4 t).mpr h15) (iblk0 V c 0 t) (iblk0 V c 1 t) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The body at a point that is an off-diagonal tile, the first of its tile-row. -/
theorem sound_body0_D (c : Dev nD) (t : Fin cfg0.N) (h17 : ¬ t.val % 17 = 0) (h0 : t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_start V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_D c (grid0.coords t) _ _ _ _ _ _ _ _ _ _ (fun h => h17 ((hcond0_0 t).mp h)) ((hcond0_1 t).mpr h17) ((hcond0_2 t).mpr h0) (fun h => (hcond0_3 t).mp h h0) (fun h => h15 ((hcond0_4 t).mp h)) (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [HS]; · iexists _; iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is a diagonal tile, neither the first nor the last of its tile-row. -/
theorem sound_body0_E (c : Dev nD) (t : Fin cfg0.N) (h17 : t.val % 17 = 0) (h0 : ¬ t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_step V c t h0]
  rw [symTile_diag V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_E c (grid0.coords t) _ _ _ _ _ _ _ _ _ _ ((hcond0_0 t).mpr h17) (fun h => (hcond0_1 t).mp h h17) (fun h => h0 ((hcond0_2 t).mp h)) ((hcond0_3 t).mpr h0) (fun h => h15 ((hcond0_4 t).mp h)) (iblk0 V c 0 t) (iblk0 V c 1 t) ((dat0 V c).before 3 t d3) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is a diagonal tile, the last of its tile-row. -/
theorem sound_body0_F (c : Dev nD) (t : Fin cfg0.N) (h17 : t.val % 17 = 0) (h0 : ¬ t.val % 16 = 0) (h15 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [leaves0_3_live V c t h15]
  rw [accCol_step V c t h0]
  rw [symTile_diag V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_F c (grid0.coords t) _ _ _ _ _ _ _ _ _ _ ((hcond0_0 t).mpr h17) (fun h => (hcond0_1 t).mp h h17) (fun h => h0 ((hcond0_2 t).mp h)) ((hcond0_3 t).mpr h0) ((hcond0_4 t).mpr h15) (iblk0 V c 0 t) (iblk0 V c 1 t) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The body at any point: the three residues of the point's number pick the control case. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 256 := lt_of_lt_of_eq t.isLt (show cfg0.N = 256 from N_0)
  by_cases h17 : t.val % 17 = 0
  · by_cases h0 : t.val % 16 = 0
    · exact sound_body0_A V c t h17 h0 (by omega)
    · by_cases h15 : t.val % 16 = 15
      · exact sound_body0_F V c t h17 h0 h15
      · exact sound_body0_E V c t h17 h0 h15
  · by_cases h0 : t.val % 16 = 0
    · exact sound_body0_D V c t h17 h0 (by omega)
    · by_cases h15 : t.val % 16 = 15
      · exact sound_body0_C V c t h17 h0 h15
      · exact sound_body0_B V c t h17 h0 h15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Gen

end
-- ==== Proof.Body1.lean ====
/-
  Region 1's body: at every grid point the scaling kernel, run on its three input tiles, leaves in the output
  window's staging buffer the tile scaled entry by entry by its row's and its column's factor.
-/
import proofs.«155517_j2216203125144_2_alg».proof.Proof.RegionData
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its tile at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the row factors) is fetched only at the first tile of each tile-row; in between its block index
    does not move, so its buffer still holds this point's block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the column factors) holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's accesses: each buffer whole, through the rectangle at offset zero of the buffer's own sizes -/

theorem hz1 : (![0, 0] : Fin 2 → Nat) = fun _ => 0 := funext fun a => by fin_cases a <;> rfl

abbrev r1_0 : Rect S1024x1024 := Rect.unit (s := S1024x1024) ![0, 0] S1024x1024.size inb_S1024x1024_S1024x1024_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0

/-- The one store covers the output buffer. -/
theorem cover1_3 (p0 : Vec F S1024x1024 .f32) (y : S1024x1024.Idx) :
    ∃ pc ∈ ([⟨r1_0, p0⟩] : List (View.Piece (Elt F) S1024x1024 .f32)), y ∈ pc.1.set :=
  ⟨_, List.mem_singleton_self _, View.mem_set_unit_zero (S := S1024x1024) hz1 inb_S1024x1024_S1024x1024_0_0 y⟩

/-! ## The body's triple -/

set_option maxHeartbeats 1000000 in
/-- The kernel body on whole staging memrefs, the inputs' at read contents `x0`, `x1`, `x2` and the output's at
    anything, runs to the continuation holding the inputs' as they were and the output's at the scaled tile. -/
theorem sound_kernel1 (c : Dev nD) (E : Set ℕ) (i : grid1.Coords)
    (arg2 : Memref sig .tc .vmem S1024x1024 .f32) (harg2 : arg2.IsWhole)
    (arg3 : Memref sig .tc .vmem S1024x1 .f32) (harg3 : arg3.IsWhole)
    (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1 .f32) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E (cc1__normalize_kernel i arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_3 _), View.canon_unit_zero (S := S1024x1024) hz1]
  have e0 : View.readAt (Elt F) arg2.view r1_0.toLoadRect f0 = View.read (Elt F) arg2.view f0 :=
    View.ld_unit_zero (S := S1024x1024) hz1 inb_S1024x1024_S1024x1024_0_0 _
  have e1 : View.readAt (Elt F) arg3.view r1_1.toLoadRect f1 = View.read (Elt F) arg3.view f1 :=
    View.ld_unit_zero (S := S1024x1) hz1 inb_S1024x1_S1024x1_0_0 _
  have e2 : View.readAt (Elt F) arg4.view r1_2.toLoadRect f2 = View.read (Elt F) arg4.view f2 :=
    View.ld_unit_zero (S := S1x1024) hz1 inb_S1x1024_S1x1024_0_0 _
  rw [e0, e1, e2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their tiles, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Gen

end
-- ==== Proof.RegionsRun.lean ====
/-
  The run of @main over its three items — region 0, the host reshape, region 1 — with the buffers' contents at the
  item boundaries as explicit valuations: at launch the memory; after region 0 its two output arrays at what the
  pipeline's write-backs leave; after the reshape the column re-read as a row; after region 1 its output array at what
  its write-backs leave.  The argument array is never written.
-/
import proofs.«155517_j2216203125144_2_alg».proof.Proof.RegionData
import proofs.«155517_j2216203125144_2_alg».proof.Proof.Gen.KernelIdeal.Regions
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at the item boundaries -/

section Run
variable (m : (ℓ : Loc nD τ sig) → Buf (Elt F) ℓ)

/-- Core `c`'s buffers at launch. -/
abbrev Wa (c : Dev nD) : Valuation τ sig (Elt F) := fun b => m (c, b)
/-- The same read at the TensorCore's references (what region 0's proof data take). -/
abbrev Va : (c : Dev nD) → (b : Ref sig .tc) → Buf (Elt F) ((c : Thread nD τ).loc b) := fun c b => Wa m c (Proc.devRef .tc b)
/-- After region 0: its two output arrays at what the write-backs leave, every other buffer as launched. -/
def Wb (c : Dev nD) : Valuation τ sig (Elt F) :=
  Function.update (Function.update (Wa m c) main_v0_0 ((dat0 (Va m) c).arrAt 2 cfg0.N)) main_v0_1 ((dat0 (Va m) c).arrAt 3 cfg0.N)
/-- After the host reshape. -/
abbrev Wc (c : Dev nD) : Valuation τ sig (Elt F) := StableHlo.after hostOps1 (Wb m c)
/-- The same read at the TensorCore's references (what region 1's proof data take). -/
abbrev Vc : (c : Dev nD) → (b : Ref sig .tc) → Buf (Elt F) ((c : Thread nD τ).loc b) := fun c b => Wc m c (Proc.devRef .tc b)
/-- After region 1: its output array at what the write-backs leave, every other buffer as it was. -/
def Wd (c : Dev nD) : Valuation τ sig (Elt F) :=
  Function.update (Wc m c) main_v2 ((dat1 (Vc m) c).arrAt 3 cfg1.N)
/-- The same read at the TensorCore's references. -/
abbrev Vd : (c : Dev nD) → (b : Ref sig .tc) → Buf (Elt F) ((c : Thread nD τ).loc b) := fun c b => Wd m c (Proc.devRef .tc b)

theorem Wb_v0_0 (c : Dev nD) : Wb m c (Proc.devRef .tc main_v0_0) = (dat0 (Va m) c).arrAt 2 cfg0.N := by
  unfold Wb
  rw [Function.update_of_ne (StableHlo.devRef_ne_of_ne (by decide) : (Proc.devRef .tc main_v0_0 : DevRef τ sig) ≠ Proc.devRef .tc main_v0_1)]
  exact Function.update_self ..
theorem Wb_v0_1 (c : Dev nD) : Wb m c (Proc.devRef .tc main_v0_1) = (dat0 (Va m) c).arrAt 3 cfg0.N := by
  unfold Wb; exact Function.update_self ..
theorem Wb_of (c : Dev nD) (r : Ref sig .tc) (h : r ∉ ([main_v0_0, main_v0_1] : List (Ref sig .tc))) : Wb m c (Proc.devRef .tc r) = Wa m c (Proc.devRef .tc r) := by
  unfold Wb
  simp only [Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem Wc_of (c : Dev nD) (r : Ref sig .tc) (h : r ∉ hostOps1_W) : Wc m c (Proc.devRef .tc r) = Wb m c (Proc.devRef .tc r) :=
  StableHlo.after_of_writes_sub hostOps1 _ hostOps1_writes h
theorem Wd_v2 (c : Dev nD) : Wd m c (Proc.devRef .tc main_v2) = (dat1 (Vc m) c).arrAt 3 cfg1.N := by
  unfold Wd; exact Function.update_self ..
theorem Wd_of (c : Dev nD) (r : Ref sig .tc) (h : r ∉ ([main_v2] : List (Ref sig .tc))) : Wd m c (Proc.devRef .tc r) = Wc m c (Proc.devRef .tc r) := by
  unfold Wd
  simp only [Function.update_of_ne (StableHlo.devRef_ne_of_ne (List.ne_of_not_mem_cons h) : (Proc.devRef .tc r : DevRef τ sig) ≠ Proc.devRef .tc main_v2)]

/-! ## What the later items read -/

theorem Va_main_arg0 (c : Dev nD) : Va m c main_arg0 = m ((c : Thread nD τ).loc main_arg0) := rfl
theorem Vc_main_v0_0 (c : Dev nD) : Vc m c main_v0_0 = (dat0 (Va m) c).arrAt 2 cfg0.N :=
  (Wc_of m c main_v0_0 (by decide)).trans (Wb_v0_0 m c)
theorem Vc_main_v0_1 (c : Dev nD) : Vc m c main_v0_1 = (dat0 (Va m) c).arrAt 3 cfg0.N :=
  (Wc_of m c main_v0_1 (by decide)).trans (Wb_v0_1 m c)
theorem Vc_main_arg0 (c : Dev nD) : Vc m c main_arg0 = m ((c : Thread nD τ).loc main_arg0) :=
  (Wc_of m c main_arg0 (by decide)).trans ((Wb_of m c main_arg0 (by decide)).trans rfl)
theorem Vd_main_arg0 (c : Dev nD) : Vd m c main_arg0 = m ((c : Thread nD τ).loc main_arg0) :=
  (Wd_of m c main_arg0 (by decide)).trans (Vc_main_arg0 m c)

end Run

/-! ## The proof data family and the thread state -/

section Records
variable (m : (ℓ : Loc nD τ sig) → Buf (Elt F) ℓ)

/-- Every pipeline's proof data, each at its region's entry contents. -/
def pdatsR : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
/-- No core owes another anything: no level is assigned. -/
abbrev LR : GSem nD τ sig → Finset Unit := fun _ => ∅
abbrev lvR : GSem nD τ sig → Unit → ℕ := fun _ _ => 0
/-- What rides beside the buffers through every item: the core's generator register at some state and the core
    owing nothing. -/
abbrev Rest (c : Dev nD) : sProp 𝕄 := iprop((∃ r, prngReg c r) ∗ ∃ W, owes (c : Thread nD τ) (0 : CellTallies nD τ sig Unit) W)
/-- The host reshape as a segment over the unscoped references from the contents region 0 leaves. -/
abbrev hseg1 : Pipeline.HostSeg (Name := ℕ) (U := UR sig nD τ) (pcfgs (F := F)) defs₀ Variants.none LR lvR :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wb m) Rest
/-- An unscoped TensorCore reference is among those the thread state holds. -/
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register
    at some state. -/
abbrev TnR (c : Dev nD) : sProp 𝕄 := iprop(StableHlo.held (c : Thread nD τ) (Pipeline.ucRefs τ sig) (Wd m c) ∗ ∃ r, prngReg c r)

/-- At region 1's exit each of its arrays holds what the pipeline leaves: an input as entered, the output the
    write-backs folded. -/
theorem hF1 (c : Dev nD) : ∀ w : Fin cfg1.W, (dat1 (Vc m) c).arrAt w cfg1.N = Vd m c (Pipeline.arrRef spec1 w)
  | ⟨0, _⟩ => (((dat1 (Vc m) c).arrAt_in 0 rfl _).trans (A_eq1 (Vc m) c 0)).trans (Wd_of m c main_v0_0 (by decide)).symm
  | ⟨1, _⟩ => (((dat1 (Vc m) c).arrAt_in 1 rfl _).trans (A_eq1 (Vc m) c 1)).trans (Wd_of m c main_v0_1 (by decide)).symm
  | ⟨2, _⟩ => (((dat1 (Vc m) c).arrAt_in 2 rfl _).trans (A_eq1 (Vc m) c 2)).trans (Wd_of m c main_v1 (by decide)).symm
  | ⟨3, _⟩ => (Wd_v2 m c).symm
theorem hrest1 (c : Dev nD) : ∀ b, b ∉ Finset.univ.image (Pipeline.arrRef spec1) → Vd m c b = Vc m c b :=
  fun b hb => Wd_of m c b fun h => hb (Finset.mem_image.mpr ⟨3, Finset.mem_univ _, (List.mem_singleton.mp h).symm⟩)

-- a library lemma stated over the pinned configuration unifies with the printed one only when unification may unfold
-- plain definitions in a metavariable's type
set_option backward.isDefEq.respectTransparency.types false in
/-- REGION 1 over the thread state: entered from every unscoped buffer at `Wc`, left at `Wd`.  Its arrays are split
    out of the unscoped buffers and put back at the exit contents; the generator register goes into the class
    invariant and comes out; nothing is owed; the kernel has no semaphore of its own. -/
def reg1 (hb1 : ∀ (V : (c : Dev nD) → (b : Ref sig .tc) → Buf (Elt F) ((c : Thread nD τ).loc b)) (c : Dev nD),
      BodyObligation (dat1 (F := F) V c) (defs₀ (F := F)) Variants.none () Set.univ) :
    Pipeline.RegionSeg (pcfgs (F := F)) adm (pdatsR m) () defs₀ Variants.none LR lvR 1 where
  win := launch1.win.to₀
  block_pos := launch1.block_pos
  stage_whole := launch1.stage_whole
  K := PEmpty
  osem k := k.elim
  ho := Pipeline.OwnSemFacts.none _
  hbody c := (hb1 (Vc m) c).loose
  hwaits := Pipeline.hwaits_of_owed_zero _ _ _ _ LR lvR 1 fun _ _ => rfl
  pre c := iprop(StableHlo.held (c : Thread nD τ) (Pipeline.ucRefs τ sig) (Wc m c) ∗ Rest c)
  post c := iprop(TnR m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdatsR m) launch1.win launch1.arr_whole c
      ((pdatsR m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsR m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsR m) ((pdatsR m 1 c).share_full fun _ => rfl)
      (Vc m c) (Vd m c) ((pdatsR m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order: region 0, the host reshape, region 1. -/
abbrev segsR (R0 : Pipeline.RegionSeg (pcfgs (F := F)) adm (pdatsR m) () defs₀ Variants.none LR lvR 0)
    (R1 : Pipeline.RegionSeg (pcfgs (F := F)) adm (pdatsR m) () defs₀ Variants.none LR lvR 1) :
    List (Pipeline.Seg (pcfgs (F := F)) adm (pdatsR m) () defs₀ Variants.none LR lvR) :=
  [ .region R0, .host (hseg1 m), .region R1 ]

-- the launch theorem's implicit arguments are found by unifying its conclusion with this one, which takes unfolding
-- plain definitions in a metavariable's type
set_option backward.isDefEq.respectTransparency.types false in
/-- THE RUN, given region 0's record entered from the launch contents and left at `Wb`: from any memory with zero
    counters every weakly fair execution of @main terminates, and every final memory holds region 1's output array
    at what its write-backs leave and the argument as launched. -/
theorem run_of_reg0 (hb1 : ∀ (V : (c : Dev nD) → (b : Ref sig .tc) → Buf (Elt F) ((c : Thread nD τ).loc b)) (c : Dev nD),
      BodyObligation (dat1 (F := F) V c) (defs₀ (F := F)) Variants.none () Set.univ)
    (R0 : Pipeline.RegionSeg (pcfgs (F := F)) adm (pdatsR m) () defs₀ Variants.none LR lvR 0)
    (hpre0 : ∀ c : Dev nD, iprop(StableHlo.held (c : Thread nD τ) (Pipeline.ucRefs τ sig) (Wa m c) ∗ Rest c) ⊢ R0.pre c)
    (hpost0 : ∀ c : Dev nD, R0.post c ⊢ iprop(StableHlo.held (c : Thread nD τ) (Pipeline.ucRefs τ sig) (Wb m c) ∗ Rest c))
    (ρ : Dev nD → PrngReg) :
    θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)) :=
  Pipeline.θ_run_regions_kit (pcfgs (F := F)) adm (pdatsR m) () cellOf_inj emb₁ defs₀ Variants.none LR lvR m ρ main (segsR m R0 (reg1 m hb1))
    (fun c Q => by
      rewrite [main_chain c, Pipeline.Seg.run_eq_chain,
        show (segsR m R0 (reg1 m hb1)).map Pipeline.Seg.prog = [
          Prog.lift (.customCall (Pipeline.entry 0) ()),
          StableHlo.seq hostOps1,
          Prog.lift (.customCall (Pipeline.entry 1) ()) ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ Rest c)) (Tₙ := TnR m)
    (hch := ⟨hpre0, fun c => hpost0 c, fun _ => .rfl, fun _ => .rfl⟩)
    (hinit := by
      refine Pipeline.initEach LR lvR fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c =>
      ⟨(h c _ (mem_ucR main_v2 (by decide))).trans (Wd_v2 m c),
       (h c _ (mem_ucR main_arg0 (by decide))).trans (Vd_main_arg0 m c)⟩)

end Records

/-! ## Region 0's arrays among the unscoped buffers

Two of region 0's windows read one array, so its arrays are not distinct buffers: the unscoped buffers are listed one
by one, the argument's points-to split between the two input windows at entry and rejoined at exit. -/

section Shared
variable (c : Dev nD)

/-- The core's unscoped buffers, one by one. -/
theorem unscopedBufs_list (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)
          ∗ (((c : Thread nD τ).loc main_v2) ↦{fullShare} V main_v2)) := by
  unfold unscopedBufs
  exact bigSep_eq_bigSepL_of_eq [main_arg0, main_v0_0, main_v0_1, main_v1, main_v2] (by decide) (by decide) _

/-- Region 0's arrays, window by window: the argument at half a share twice, the two outputs whole. -/
theorem arrays0_list (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)) := by
  unfold Dat.arrays
  rw [bigSep_W0, (arr_whole0 0).set_eq_univ, (arr_whole0 2).set_eq_univ, (arr_whole0 3).set_eq_univ]
  rfl

end Shared

section Shared0
variable (c : Dev nD)

/-- ENTRY: the unscoped buffers at `V` are region 0's arrays at any contents that read `V` — the argument's buffer
    halved between the two input windows — and the two buffers no window of region 0 touches. -/
theorem arrays0_of_unscopedBufs (V : (c : Dev nD) → (b : Ref sig .tc) → Buf (Elt F) ((c : Thread nD τ).loc b))
    (G : (w : Fin cfg0.W) → Buf (Elt F) ((cfg0.win w).arr.view.loc (c : Thread nD τ)))
    (h0 : G 0 = V c main_arg0) (h1 : G 1 = V c main_arg0) (h2 : G 2 = V c main_v0_0) (h3 : G 3 = V c main_v0_1) :
    (unscopedBufs c (V c) : sProp 𝕄)
      ⊢ iprop((dat0 V c).arrays G ∗ Pipeline.unscopedRest (Ix := Unit) (Name := ℕ) (U := UR sig nD τ) (Lvl := ℕ) spec0 c (V c)) := by
  rw [unscopedBufs_list, unscopedRest0_eq, arrays0_list, h0, h1, h2, h3]
  iintro ⟨Harg, Hv00, Hv01, Hv1, Hv2⟩
  ihave H := (pointsTo_share (PosShare.mem_left_op_right fullShare)).1 $$ Harg
  icases H with ⟨Hl, Hr⟩
  isplitl [Hl Hr Hv00 Hv01]
  · isplitl [Hl]; · iexact Hl
    isplitl [Hr]; · iexact Hr
    isplitl [Hv00]; · iexact Hv00
    iexact Hv01
  · isplitl [Hv1]; · iexact Hv1
    iexact Hv2

/-- EXIT: region 0's arrays at contents `G` — both input windows holding the argument's buffer at one contents — and
    the two untouched buffers at `V` are the unscoped buffers at any valuation `V'` that has the arrays at `G` and
    agrees with `V` off them. -/
theorem unscopedBufs_of_arrays0 (V : (c : Dev nD) → (b : Ref sig .tc) → Buf (Elt F) ((c : Thread nD τ).loc b))
    (V' : (b : Ref sig .tc) → Buf (Elt F) ((c : Thread nD τ).loc b))
    (G : (w : Fin cfg0.W) → Buf (Elt F) ((cfg0.win w).arr.view.loc (c : Thread nD τ)))
    (h0 : G 0 = V' main_arg0) (h1 : G 1 = V' main_arg0) (h2 : G 2 = V' main_v0_0) (h3 : G 3 = V' main_v0_1)
    (hv1 : V c main_v1 = V' main_v1) (hv2 : V c main_v2 = V' main_v2) :
    iprop((dat0 V c).arrays G ∗ Pipeline.unscopedRest (Ix := Unit) (Name := ℕ) (U := UR sig nD τ) (Lvl := ℕ) spec0 c (V c))
      ⊢ (unscopedBufs c V' : sProp 𝕄) := by
  rw [unscopedBufs_list, unscopedRest0_eq, arrays0_list, h0, h1, h2, h3, hv1, hv2]
  iintro ⟨⟨Hl, Hr, Hv00, Hv01⟩, Hv1, Hv2⟩
  isplitl [Hl Hr]
  · iapply (pointsTo_share (PosShare.mem_left_op_right fullShare)).2
    isplitl [Hl]; · iexact Hl
    iexact Hr
  isplitl [Hv00]; · iexact Hv00
  isplitl [Hv01]; · iexact Hv01
  isplitl [Hv1]; · iexact Hv1
  iexact Hv2

end Shared0

section Region0
variable (m : (ℓ : Loc nD τ sig) → Buf (Elt F) ℓ)

/-- At region 0's exit each of its arrays holds what the pipeline leaves: the argument as entered (under both input
    windows), each output the write-backs folded. -/
theorem hF0_0 (c : Dev nD) : (dat0 (Va m) c).arrAt 0 cfg0.N = Wb m c (Proc.devRef .tc main_arg0) :=
  (((dat0 (Va m) c).arrAt_in 0 rfl _).trans (A_eq0 (Va m) c 0)).trans (Wb_of m c main_arg0 (by decide)).symm
theorem hF0_1 (c : Dev nD) : (dat0 (Va m) c).arrAt 1 cfg0.N = Wb m c (Proc.devRef .tc main_arg0) :=
  (((dat0 (Va m) c).arrAt_in 1 rfl _).trans (A_eq0 (Va m) c 1)).trans (Wb_of m c main_arg0 (by decide)).symm

-- a library lemma stated over the pinned configuration unifies with the printed one only when unification may unfold
-- plain definitions in a metavariable's type
set_option backward.isDefEq.respectTransparency.types false in
/-- REGION 0 over the thread state: entered from every unscoped buffer at the launch contents, left at `Wb`.  The
    argument's buffer is halved between the two input windows at entry and made whole again at exit; the generator
    register goes into the invariant and comes out; nothing is owed; the kernel has no semaphore of its own. -/
def reg0 (hb0 : ∀ (V : (c : Dev nD) → (b : Ref sig .tc) → Buf (Elt F) ((c : Thread nD τ).loc b)) (c : Dev nD),
      BodyObligation (dat0 (F := F) V c) (defs₀ (F := F)) Variants.none () Set.univ)
    (hin0 : ∀ (V : (c : Dev nD) → (b : Ref sig .tc) → Buf (Elt F) ((c : Thread nD τ).loc b)) (c : Dev nD),
      (Pipeline.ΦA spec0 c : sProp 𝕄) ⊢ (dat0 (F := F) V c).Φ 0)
    (hout0 : ∀ (V : (c : Dev nD) → (b : Ref sig .tc) → Buf (Elt F) ((c : Thread nD τ).loc b)) (c : Dev nD),
      (dat0 (F := F) V c).Φ (Fin.last cfg0.N) ⊢ (Pipeline.ΦA spec0 c : sProp 𝕄)) :
    Pipeline.RegionSeg (pcfgs (F := F)) adm (pdatsR m) () defs₀ Variants.none LR lvR 0 where
  win := winFacts₀0
  block_pos := block_pos0
  stage_whole := stage_whole0
  K := PEmpty
  osem k := k.elim
  ho := Pipeline.OwnSemFacts.none _
  hbody c := (hb0 (Va m) c).loose
  hwaits := Pipeline.hwaits_of_owed_zero _ _ _ _ LR lvR 0 fun _ _ => rfl
  pre c := iprop(StableHlo.held (c : Thread nD τ) (Pipeline.ucRefs τ sig) (Wa m c) ∗ Rest c)
  post c := iprop(StableHlo.held (c : Thread nD τ) (Pipeline.ucRefs τ sig) (Wb m c) ∗ Rest c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := arrays0_of_unscopedBufs c (Va m) ((pdatsR m 0 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := unscopedBufs_of_arrays0 c (Va m) (fun b => Wb m c (Proc.devRef .tc b)) ((pdatsR m 0 c).arrAt · cfg0.N)
      (hF0_0 m c) (hF0_1 m c) (Wb_v0_0 m c).symm (Wb_v0_1 m c).symm (Wb_of m c main_v1 (by decide)).symm (Wb_of m c main_v2 (by decide)).symm
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- THE RUN of @main over its three items, from the two regions' body obligations and region 0's invariant at its two
    ends: from any memory with zero counters every weakly fair execution terminates, and every final memory holds region
    1's output array at what its write-backs leave and the argument as launched. -/
theorem run_value (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hin0 : ∀ (V : (c : Dev nD) → (b : Ref sig .tc) → Buf (Elt F) ((c : Thread nD τ).loc b)) (c : Dev nD),
      (Pipeline.ΦA spec0 c : sProp 𝕄) ⊢ (dat0 (F := F) V c).Φ 0)
    (hout0 : ∀ (V : (c : Dev nD) → (b : Ref sig .tc) → Buf (Elt F) ((c : Thread nD τ).loc b)) (c : Dev nD),
      (dat0 (F := F) V c).Φ (Fin.last cfg0.N) ⊢ (Pipeline.ΦA spec0 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)) :=
  run_of_reg0 m hb1 (reg0 m hb0 hin0 hout0) (fun _ => .rfl) (fun _ => .rfl) ρ

end Region0

/-! ## The reshape, read back -/

section Reshape
variable (m : (ℓ : Loc nD τ sig) → Buf (Elt F) ℓ)

/-- Region 1's third window reads the column region 0 wrote, re-read as a row. -/
theorem Vc_main_v1 (c : Dev nD) :
    (Vc m c main_v1 : S1x8192.Idx → Elt F .f32)
      = shapeCast S1x8192 ((dat0 (Va m) c).arrAt 3 cfg0.N : S8192x1.Idx → Elt F .f32) shapeCasts_S8192x1_S1x8192 := by
  show StableHlo.after hostOps1 (Wb m c) (Proc.devRef .tc main_v1) = _
  after_results
  rw [Wb_v0_1]
  rfl

end Reshape

end Cert.KernelIdeal.Gen

end
-- ==== Proof.Bits.RegionData.lean ====
/-
  The proof data of the two kernel regions, in closed form over the bodies' arithmetic.

  Region 0 walks a 16 × 16 grid of 512 × 512 tiles, row-major (point t is tile (t / 16, t % 16)).  At point t it
  forms the symmetrised tile max(adj[i,j], adj[j,i]ᵀ) — with ones on the diagonal exactly when the tile is a
  diagonal one, i.e. t % 17 = 0 — writes it out, and adds its row sums into a scratch column that is restarted at the
  first tile of each tile-row (t % 16 = 0); at the last tile of the row (t % 16 = 15) the reciprocal square root of
  the accumulated column is written out.  Region 1 walks an 8 × 8 grid of 1024 × 1024 tiles and scales each entry by
  its row's and its column's factor.
-/
import proofs.«155517_j2216203125144_2_alg».proof.Proof.Gen.Kernel.Launch
import proofs.«155517_j2216203125144_2_alg».proof.Proof.Gen.Kernel.Skeleton
import proofs.«155517_j2216203125144_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The symmetrised tile at point `t`: ones on its diagonal exactly at the diagonal tiles. -/
def symTile (c : Dev nD) (t : Fin cfg0.N) : Vec F S512x512 .f32 :=
  if t.val % 17 = 0 then k0_pay2 (iblk0 V c 0 t) (iblk0 V c 1 t) else k0_pay1 (iblk0 V c 0 t) (iblk0 V c 1 t)

/-- The running column of row sums after point `n`: restarted at the first tile of each tile-row. -/
def accCol (c : Dev nD) : (n : ℕ) → n < cfg0.N → Vec F S512x1 .f32
  | 0, hn => k0_pay4 (symTile V c ⟨0, hn⟩)
  | n + 1, hn =>
    if (n + 1) % 16 = 0 then k0_pay4 (symTile V c ⟨n + 1, hn⟩)
    else k0_pay5 (symTile V c ⟨n + 1, hn⟩) (accCol c n (Nat.lt_of_succ_lt hn))

theorem accCol_start (c : Dev nD) (t : Fin cfg0.N) (h : t.val % 16 = 0) :
    accCol V c t.val t.isLt = k0_pay4 (symTile V c t) := by
  obtain ⟨n, hn⟩ := t
  cases n with
  | zero => rfl
  | succ n => exact (if_pos h).trans rfl

theorem accCol_step (c : Dev nD) (t : Fin cfg0.N) (h : ¬ t.val % 16 = 0) :
    accCol V c t.val t.isLt = k0_pay5 (symTile V c t) (accCol V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch column as a memref. -/
abbrev scM0 : Memref sig .tc .vmem S512x1 .f32 := Memref.whole cc0_scratch0

/-- The scoped buffers region 0 never touches (region 1's staging buffers), each at some contents. -/
def restB0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch invariant of region 0 with the scratch column spelt as a memref. -/
theorem PhiA0_eq (c : Dev nD) :
    (Pipeline.ΦA spec0 c : sProp 𝕄)
      = iprop(iprop((∃ d, owns (c : Thread nD τ) scM0 fullShare d) ∗ restB0 c) ∗ (∃ r, prngReg c r)) := by
  unfold Pipeline.ΦA restB0; rw [scopedRest0_eq]; simp only [scM0, owns_whole]; try rfl

/-- Region 0's invariant before position `n`: at the start the launch invariant; afterwards the scratch column at
    the running sums the point before left. -/
def PhiS0 (c : Dev nD) : (n : ℕ) → n ≤ cfg0.N → sProp 𝕄
  | 0, _ => Pipeline.ΦA spec0 c
  | n + 1, hn => iprop(iprop(owns (c : Thread nD τ) scM0 fullShare (accCol V c n hn) ∗ restB0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accCol V c n hn) ∗ restB0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accCol V c (n - 1) (by omega)) ∗ restB0 c) ∗ (∃ r, prngReg c r)) := by
  cases n with
  | zero => exact absurd rfl hz
  | succ n => rfl

/-- The two input windows read one array: each holds half of it. -/
def q0 : Fin cfg0.W → PosShare TreeShare
  | ⟨0, _⟩ => fullShare.left
  | ⟨1, _⟩ => fullShare.right
  | ⟨2, _⟩ => fullShare
  | ⟨3, _⟩ => fullShare

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => symTile V c t
    | ⟨3, _⟩ => k0_pay6 (accCol V c t.val t.isLt)
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = symTile V c t := by dsimp only [dat0]
theorem after0_3 (c : Dev nD) (t : Fin cfg0.N) : (dat0 V c).after 3 t = k0_pay6 (accCol V c t.val t.isLt) := by dsimp only [dat0]

/-! ## Region 1 -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the scaled tile from the three input tiles. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 0 t) (iblk1 V c 1 t) (iblk1 V c 2 t) := by dsimp only [dat1]

end Regions

end Cert.Kernel.Gen

end
-- ==== Proof.Bits.Body0Runs.lean ====
/-
  What the six control cases of region 0's body share: the five branch conditions in closed form over the grid,
  where the two output windows are idle, and the staging memrefs at a point.

  Point t of the 16 × 16 grid is tile (t / 16, t % 16).  The tile is a diagonal one exactly when t % 17 = 0; the
  scratch column is restarted when t % 16 = 0 and added to otherwise; the reciprocal square roots are written at
  t % 16 = 15.
-/
import proofs.«155517_j2216203125144_2_alg».proof.Proof.Bits.RegionData
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The tile is on the diagonal. -/
abbrev cond0_0 (i : grid0.Coords) : Prop := k0_cond1 i = 1#1
theorem hcond0_0 : ∀ t : Fin cfg0.N, cond0_0 (grid0.coords t) ↔ t.val % 17 = 0 :=
  (by decide +kernel : ∀ t : Fin grid0.N, cond0_0 (grid0.coords t) ↔ t.val % 17 = 0)

/-- The tile is off the diagonal. -/
abbrev cond0_1 (i : grid0.Coords) : Prop := k0_cond2 i = 1#1
theorem hcond0_1 : ∀ t : Fin cfg0.N, cond0_1 (grid0.coords t) ↔ ¬ t.val % 17 = 0 :=
  (by decide +kernel : ∀ t : Fin grid0.N, cond0_1 (grid0.coords t) ↔ ¬ t.val % 17 = 0)

/-- The tile is the first of its tile-row. -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 16 = 0 :=
  (by decide +kernel : ∀ t : Fin grid0.N, cond0_2 (grid0.coords t) ↔ t.val % 16 = 0)

/-- The tile is not the first of its tile-row. -/
abbrev cond0_3 (i : grid0.Coords) : Prop := (Scalar.cmpi .ne (Scalar.extui (Scalar.cmpi .ne (BitVec.ofNat 32 (i 1).val) 0#32)) 0#32) = 1#1
theorem hcond0_3 : ∀ t : Fin cfg0.N, cond0_3 (grid0.coords t) ↔ ¬ t.val % 16 = 0 :=
  (by decide +kernel : ∀ t : Fin grid0.N, cond0_3 (grid0.coords t) ↔ ¬ t.val % 16 = 0)

/-- The tile is the last of its tile-row. -/
abbrev cond0_4 (i : grid0.Coords) : Prop := k0_cond5 i = 1#1
theorem hcond0_4 : ∀ t : Fin cfg0.N, cond0_4 (grid0.coords t) ↔ t.val % 16 = 15 :=
  (by decide +kernel : ∀ t : Fin grid0.N, cond0_4 (grid0.coords t) ↔ t.val % 16 = 15)

/-! ## Where the windows are idle -/

/-- The symmetrised tile is stored at every point: one of the two first branches is taken. -/
theorem liveAt0_2 : ∀ t : Fin cfg0.N, cfg0.idle 2 (grid0.coords t) = false := by decide +kernel
/-- Away from the last tile of a tile-row nothing is stored into the column output, -/
theorem idleAt0_3 : ∀ t : Fin cfg0.N, ¬ t.val % 16 = 15 → cfg0.idle 3 (grid0.coords t) = true := by decide +kernel
/-- and its block is not written back there; -/
theorem noFlush0_3 : ∀ t : Fin cfg0.N, ¬ t.val % 16 = 15 → (cfg0.win 3).flush t = false := by decide +kernel
/-- at the last tile of a tile-row it is stored. -/
theorem liveAt0_3 : ∀ t : Fin cfg0.N, t.val % 16 = 15 → cfg0.idle 3 (grid0.coords t) = false := by decide +kernel

/-! ## The staging memrefs at a point -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

/-! ## Whole-buffer loads and stores read back -/

theorem hz2 : (![0, 0] : Fin 2 → Nat) = fun _ => 0 := funext fun a => by fin_cases a <;> rfl

/-- A tile buffer after ONE store of the whole tile holds the stored tile, whatever it held before. -/
theorem read_store_T {sg : RefSig} {κ : Kind} {sp : Space} (v : View sg κ sp S512x512 .f32) (f : v.ty.Contents (Elt F)) (w : Vec F S512x512 .f32) :
    v.read (Elt F) (v.writes (Elt F) f [⟨(Rect.unit (s := S512x512) ![0, 0] S512x512.size inb_S512x512_S512x512_0_0), w⟩]) = w := by
  rw [View.read_writes_eq_canon _ _ _ (fun y => ⟨_, List.mem_singleton_self _, View.mem_set_unit_zero hz2 inb_S512x512_S512x512_0_0 y⟩), View.canon_unit_zero hz2]

/-- The same for a column buffer. -/
theorem read_store_C {sg : RefSig} {κ : Kind} {sp : Space} (v : View sg κ sp S512x1 .f32) (f : v.ty.Contents (Elt F)) (w : Vec F S512x1 .f32) :
    v.read (Elt F) (v.writes (Elt F) f [⟨(Rect.unit (s := S512x1) ![0, 0] S512x1.size inb_S512x1_S512x1_0_0), w⟩]) = w := by
  rw [View.read_writes_eq_canon _ _ _ (fun y => ⟨_, List.mem_singleton_self _, View.mem_set_unit_zero hz2 inb_S512x1_S512x1_0_0 y⟩), View.canon_unit_zero hz2]

/-- A load of the whole tile after one store of the whole tile reads the stored tile. -/
theorem readCov_T {sg : RefSig} {κ : Kind} {sp : Space} (v : View sg κ sp S512x512 .f32) (w : Vec F S512x512 .f32) :
    v.readCov [(⟨(Rect.unit (s := S512x512) ![0, 0] S512x512.size inb_S512x512_S512x512_0_0), w⟩ : View.Piece (Elt F) S512x512 .f32)] (Rect.unit (s := S512x512) ![0, 0] S512x512.size inb_S512x512_S512x512_0_0).toLoadRect = w :=
  View.readCov_unit_zero v hz2 _ w

/-- The same for a column buffer. -/
theorem readCov_C {sg : RefSig} {κ : Kind} {sp : Space} (v : View sg κ sp S512x1 .f32) (w : Vec F S512x1 .f32) :
    v.readCov [(⟨(Rect.unit (s := S512x1) ![0, 0] S512x1.size inb_S512x1_S512x1_0_0), w⟩ : View.Piece (Elt F) S512x1 .f32)] (Rect.unit (s := S512x1) ![0, 0] S512x1.size inb_S512x1_S512x1_0_0).toLoadRect = w :=
  View.readCov_unit_zero v hz2 _ w

/-- A load of the whole of a whole tile buffer reads its contents. -/
theorem readAt_T {sg : RefSig} {κ : Kind} {sp : Space} (m : Memref sg κ sp S512x512 .f32) (h : m.IsWhole) (x : Vec F S512x512 .f32) :
    View.readAt (Elt F) m.view (Rect.unit (s := S512x512) ![0, 0] S512x512.size inb_S512x512_S512x512_0_0).toLoadRect (h.unread x) = x := by
  rw [View.readAt_eq_ld, h.read_unread, View.ld_unit_zero (S := S512x512) hz2]

/-- The same for a column buffer. -/
theorem readAt_C {sg : RefSig} {κ : Kind} {sp : Space} (m : Memref sg κ sp S512x1 .f32) (h : m.IsWhole) (x : Vec F S512x1 .f32) :
    View.readAt (Elt F) m.view (Rect.unit (s := S512x1) ![0, 0] S512x1.size inb_S512x1_S512x1_0_0).toLoadRect (h.unread x) = x := by
  rw [View.readAt_eq_ld, h.read_unread, View.ld_unit_zero (S := S512x1) hz2]

end Cert.Kernel.Gen

end
-- ==== Proof.Bits.Body0RunA.lean ====
/-
  Region 0's body run whole in the control case "diagonal tile, first tile of its tile-row" (point 0).
  On whole buffers — the two input tiles at x0, x1, the tile output at anything, the column output at contents handed back untouched, the
  scratch column at anything — the body leaves the inputs as they were, the tile output at
  max(x0, x1ᵀ) with ones on the diagonal, the scratch column at that tile's row sums.
-/
import proofs.«155517_j2216203125144_2_alg».proof.Proof.Bits.Body0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : cond0_2 i) (hc3 : ¬cond0_3 i) (hc4 : ¬cond0_4 i)
    (x0 x1 : Vec F S512x512 .f32) (xi3 : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare xi3 ∗ owns (c : Thread nD τ) arg6 fullShare (k0_pay4 (k0_pay2 x0 x1))) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1]

end Cert.Kernel.Gen

end
-- ==== Proof.Bits.Body0RunB.lean ====
/-
  Region 0's body run whole in the control case "off-diagonal tile, neither first nor last tile of its tile-row" (the points with t % 17 ≠ 0 and 0 < t % 16 < 15).
  On whole buffers — the two input tiles at x0, x1, the tile output at anything, the column output at contents handed back untouched, the
  scratch column at the running sums xs the point before left — the body leaves the inputs as they were, the tile output at
  max(x0, x1ᵀ), the scratch column at xs plus that tile's row sums.
-/
import proofs.«155517_j2216203125144_2_alg».proof.Proof.Bits.Body0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : ¬cond0_2 i) (hc3 : cond0_3 i) (hc4 : ¬cond0_4 i)
    (x0 x1 : Vec F S512x512 .f32) (xi3 : Vec F S512x1 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare xi3 ∗ owns (c : Thread nD τ) arg6 fullShare (k0_pay5 (k0_pay1 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1, readAt_C arg6 harg6 xs]

end Cert.Kernel.Gen

end
-- ==== Proof.Bits.Body0RunC.lean ====
/-
  Region 0's body run whole in the control case "off-diagonal tile, last tile of its tile-row" (the points with t % 16 = 15 but 255).
  On whole buffers — the two input tiles at x0, x1, the tile output at anything, the column output at anything, the
  scratch column at the running sums xs the point before left — the body leaves the inputs as they were, the tile output at
  max(x0, x1ᵀ), the scratch column at xs plus that tile's row sums, and the column output at the reciprocal square roots of the scratch column.
-/
import proofs.«155517_j2216203125144_2_alg».proof.Proof.Bits.Body0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_C (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : ¬cond0_2 i) (hc3 : cond0_3 i) (hc4 : cond0_4 i)
    (x0 x1 : Vec F S512x512 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare (k0_pay6 (k0_pay5 (k0_pay1 x0 x1) xs)) ∗ owns (c : Thread nD τ) arg6 fullShare (k0_pay5 (k0_pay1 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr
    swap; · iexact H3
    ipureintro
    (try sl_unfold_words)
    rw [read_store_C, readCov_C, readCov_T, readAt_T arg2 harg2 x0, readAt_T arg3 harg3 x1, readAt_C arg6 harg6 xs]
  iexists _; isplitr
  swap; · iexact HS
  ipureintro
  (try sl_unfold_words)
  rw [read_store_C, readCov_T, readAt_T arg2 harg2 x0, readAt_T arg3 harg3 x1, readAt_C arg6 harg6 xs]

end Cert.Kernel.Gen

end
-- ==== Proof.Bits.Body0RunD.lean ====
/-
  Region 0's body run whole in the control case "off-diagonal tile, first tile of its tile-row" (the points with t % 16 = 0 but 0).
  On whole buffers — the two input tiles at x0, x1, the tile output at anything, the column output at contents handed back untouched, the
  scratch column at anything — the body leaves the inputs as they were, the tile output at
  max(x0, x1ᵀ), the scratch column at that tile's row sums.
-/
import proofs.«155517_j2216203125144_2_alg».proof.Proof.Bits.Body0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_D (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : ¬cond0_0 i) (hc1 : cond0_1 i) (hc2 : cond0_2 i) (hc3 : ¬cond0_3 i) (hc4 : ¬cond0_4 i)
    (x0 x1 : Vec F S512x512 .f32) (xi3 : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay1 x0 x1) ∗ owns (c : Thread nD τ) arg5 fullShare xi3 ∗ owns (c : Thread nD τ) arg6 fullShare (k0_pay4 (k0_pay1 x0 x1))) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1]

end Cert.Kernel.Gen

end
-- ==== Proof.Bits.Body0RunE.lean ====
/-
  Region 0's body run whole in the control case "diagonal tile, neither first nor last tile of its tile-row" (the points 17, 34, …, 238).
  On whole buffers — the two input tiles at x0, x1, the tile output at anything, the column output at contents handed back untouched, the
  scratch column at the running sums xs the point before left — the body leaves the inputs as they were, the tile output at
  max(x0, x1ᵀ) with ones on the diagonal, the scratch column at xs plus that tile's row sums.
-/
import proofs.«155517_j2216203125144_2_alg».proof.Proof.Bits.Body0RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_E (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : ¬cond0_2 i) (hc3 : cond0_3 i) (hc4 : ¬cond0_4 i)
    (x0 x1 : Vec F S512x512 .f32) (xi3 : Vec F S512x1 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare xi3 ∗ owns (c : Thread nD τ) arg6 fullShare (k0_pay5 (k0_pay2 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr; · ipureintro; exact harg5.read_unread _
    iexact H3
  iexists _; isplitr
  swap; · iexact HS
  ipureintro
  (try sl_unfold_words)
  rw [read_store_C, readCov_T, readAt_T arg2 harg2 x0, readAt_T arg3 harg3 x1, readAt_C arg6 harg6 xs]

end Cert.Kernel.Gen

end
-- ==== Proof.Bits.Body0RunF.lean ====
/-
  Region 0's body run whole in the control case "diagonal tile, last tile of its tile-row" (point 255).
  On whole buffers — the two input tiles at x0, x1, the tile output at anything, the column output at anything, the
  scratch column at the running sums xs the point before left — the body leaves the inputs as they were, the tile output at
  max(x0, x1ᵀ) with ones on the diagonal, the scratch column at xs plus that tile's row sums, and the column output at the reciprocal square roots of the scratch column.
-/
import proofs.«155517_j2216203125144_2_alg».proof.Proof.Bits.Body0RunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this case, to a continuation that takes the buffers at the payload terms. -/
theorem kernelRun0_F (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole)
    (hc0 : cond0_0 i) (hc1 : ¬cond0_1 i) (hc2 : ¬cond0_2 i) (hc3 : cond0_3 i) (hc4 : cond0_4 i)
    (x0 x1 : Vec F S512x512 .f32) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay2 x0 x1) ∗ owns (c : Thread nD τ) arg5 fullShare (k0_pay6 (k0_pay5 (k0_pay2 x0 x1) xs)) ∗ owns (c : Thread nD τ) arg6 fullShare (k0_pay5 (k0_pay2 x0 x1) xs)) -∗ K ⟨⟩))
      ⊢ wp frame (wpE (defs₀ (F := F)) Variants.none c none) E (cc0__sym_rowsum_kernel i arg2 harg2 arg3 harg3 arg4 harg4 arg5 harg5 arg6 harg6) K := by
  simp only [cc0__sym_rowsum_kernel_eq_skeleton]; unfold cc0__sym_rowsum_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    (try sl_unfold_words)
    rw [read_store_T, readAt_T arg2 harg2 x0, readAt_T arg3 harg3 x1]
  isplitl [H3]
  · iexists _; isplitr
    swap; · iexact H3
    ipureintro
    (try sl_unfold_words)
    rw [read_store_C, readCov_C, readCov_T, readAt_T arg2 harg2 x0, readAt_T arg3 harg3 x1, readAt_C arg6 harg6 xs]
  iexists _; isplitr
  swap; · iexact HS
  ipureintro
  (try sl_unfold_words)
  rw [read_store_C, readCov_T, readAt_T arg2 harg2 x0, readAt_T arg3 harg3 x1, readAt_C arg6 harg6 xs]

end Cert.Kernel.Gen

end
-- ==== Proof.Bits.Body0.lean ====
/-
  Region 0's body obligation.

  At point t of the 16 × 16 grid the body finds the two input windows' buffers at their tiles (both are fetched at
  every point), forms the symmetrised tile — with ones on its diagonal exactly when t % 17 = 0 — and leaves it in
  the tile output's buffer; the scratch column is restarted at that tile's row sums when t % 16 = 0 and otherwise
  has them added to what the point before left; at t % 16 = 15 the column output's buffer is left at the reciprocal
  square roots of the scratch column, and at every other point it is handed back as it was found.  The three
  residues leave six control cases (a diagonal tile that is first of its row is point 0 only, and no tile is both
  first and last of its row); each is the whole-body run of that case, with the invariant handing the body the
  scratch column at the running sums of the point before and taking it back at this point's.
-/
import proofs.«155517_j2216203125144_2_alg».proof.Proof.Bits.Body0RunF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its tile at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds the transposed position's tile at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## What the body leaves in each window's buffer -/

/-- The two input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- Input window 0's buffer is left at its tile. -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
/-- Input window 1's buffer is left at its tile. -/
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
/-- The tile output's buffer is left at the symmetrised tile. -/
theorem leaves0_2 (c : Dev nD) (t : Fin cfg0.N) :
    (dat0 V c).leavesExact 2 t = owns (c : Thread nD τ) (ms0_2 t) fullShare (symTile V c t) := by
  unfold Dat.leavesExact; rw [liveAt0_2 t, after0_2]
/-- At the last tile of a tile-row the column output's buffer is left at the reciprocal square roots of the running sums. -/
theorem leaves0_3_live (c : Dev nD) (t : Fin cfg0.N) (h : t.val % 16 = 15) :
    (dat0 V c).leavesExact 3 t = owns (c : Thread nD τ) (ms0_3 t) fullShare (k0_pay6 (accCol V c t.val t.isLt)) := by
  unfold Dat.leavesExact; rw [liveAt0_3 t h, after0_3]

/-- The symmetrised tile at a diagonal tile, -/
theorem symTile_diag (c : Dev nD) (t : Fin cfg0.N) (h : t.val % 17 = 0) :
    symTile V c t = k0_pay2 (iblk0 V c 0 t) (iblk0 V c 1 t) := if_pos h
/-- and off the diagonal. -/
theorem symTile_off (c : Dev nD) (t : Fin cfg0.N) (h : ¬ t.val % 17 = 0) :
    symTile V c t = k0_pay1 (iblk0 V c 0 t) (iblk0 V c 1 t) := if_neg h

/-! ## The invariant at a point's two ends -/

/-- The invariant at a point's start, restated at the point's number. -/
theorem PhiS0_castSucc (c : Dev nD) (t : Fin cfg0.N) :
    (dat0 V c).Φ t.castSucc = PhiS0 V c t.val (Nat.le_of_lt t.isLt) := rfl

/-- What the launch hands the region is the invariant before the first point. -/
theorem hin0 (c : Dev nD) : Pipeline.ΦA spec0 c ⊢ (dat0 (F := F) V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the scratch column's named contents
    are forgotten. -/
theorem Phi_out0 (c : Dev nD) (t : Fin (cfg0.N + 1)) (ht : t.val ≠ 0) : (dat0 (F := F) V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 (F := F) V c).Φ (Fin.last cfg0.N) ⊢ Pipeline.ΦA spec0 c :=
  Phi_out0 V c _ (by rw [Fin.val_last]; have : cfg0.N = 256 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at a point that is a diagonal tile, the first of its tile-row. -/
theorem sound_body0_A (c : Dev nD) (t : Fin cfg0.N) (h17 : t.val % 17 = 0) (h0 : t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_start V c t h0]
  rw [symTile_diag V c t h17]
  have hz : t.val = 0 := by omega
  rw [PhiS0_castSucc V c t, PhiS0_zero V c _ _ hz, PhiA0_eq]
  iintro ⟨⟨⟨HS, HR⟩, Hg⟩, Ho, ⟨%d0, H0⟩, ⟨%d1, H1⟩, ⟨%d2, H2⟩, ⟨%d3, H3⟩⟩
  iapply (kernelRun0_A c (grid0.coords t) _ _ _ _ _ _ _ _ _ _ ((hcond0_0 t).mpr h17) (fun h => (hcond0_1 t).mp h h17) ((hcond0_2 t).mpr h0) (fun h => (hcond0_3 t).mp h h0) (fun h => h15 ((hcond0_4 t).mp h)) (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is an off-diagonal tile, neither the first nor the last of its tile-row. -/
theorem sound_body0_B (c : Dev nD) (t : Fin cfg0.N) (h17 : ¬ t.val % 17 = 0) (h0 : ¬ t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_step V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_B c (grid0.coords t) _ _ _ _ _ _ _ _ _ _ (fun h => h17 ((hcond0_0 t).mp h)) ((hcond0_1 t).mpr h17) (fun h => h0 ((hcond0_2 t).mp h)) ((hcond0_3 t).mpr h0) (fun h => h15 ((hcond0_4 t).mp h)) (iblk0 V c 0 t) (iblk0 V c 1 t) ((dat0 V c).before 3 t d3) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is an off-diagonal tile, the last of its tile-row. -/
theorem sound_body0_C (c : Dev nD) (t : Fin cfg0.N) (h17 : ¬ t.val % 17 = 0) (h0 : ¬ t.val % 16 = 0) (h15 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [leaves0_3_live V c t h15]
  rw [accCol_step V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_C c (grid0.coords t) _ _ _ _ _ _ _ _ _ _ (fun h => h17 ((hcond0_0 t).mp h)) ((hcond0_1 t).mpr h17) (fun h => h0 ((hcond0_2 t).mp h)) ((hcond0_3 t).mpr h0) ((hcond0_4 t).mpr h15) (iblk0 V c 0 t) (iblk0 V c 1 t) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The body at a point that is an off-diagonal tile, the first of its tile-row. -/
theorem sound_body0_D (c : Dev nD) (t : Fin cfg0.N) (h17 : ¬ t.val % 17 = 0) (h0 : t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_start V c t h0]
  rw [symTile_off V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_D c (grid0.coords t) _ _ _ _ _ _ _ _ _ _ (fun h => h17 ((hcond0_0 t).mp h)) ((hcond0_1 t).mpr h17) ((hcond0_2 t).mpr h0) (fun h => (hcond0_3 t).mp h h0) (fun h => h15 ((hcond0_4 t).mp h)) (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [HS]; · iexists _; iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is a diagonal tile, neither the first nor the last of its tile-row. -/
theorem sound_body0_E (c : Dev nD) (t : Fin cfg0.N) (h17 : t.val % 17 = 0) (h0 : ¬ t.val % 16 = 0) (h15 : ¬ t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [Dat.leavesExact_idle (dat0 V c) 3 t (idleAt0_3 t h15) (noFlush0_3 t h15)]
  rw [accCol_step V c t h0]
  rw [symTile_diag V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_E c (grid0.coords t) _ _ _ _ _ _ _ _ _ _ ((hcond0_0 t).mpr h17) (fun h => (hcond0_1 t).mp h h17) (fun h => h0 ((hcond0_2 t).mp h)) ((hcond0_3 t).mpr h0) (fun h => h15 ((hcond0_4 t).mp h)) (iblk0 V c 0 t) (iblk0 V c 1 t) ((dat0 V c).before 3 t d3) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexists _; iexact H3

/-- The body at a point that is a diagonal tile, the last of its tile-row. -/
theorem sound_body0_F (c : Dev nD) (t : Fin cfg0.N) (h17 : t.val % 17 = 0) (h0 : ¬ t.val % 16 = 0) (h15 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 256 := lt_of_lt_of_eq t.isLt (show cfg0.N = 256 from N_0)
  rw [leaves0_3_live V c t h15]
  rw [accCol_step V c t h0]
  rw [symTile_diag V c t h17]
  have hz : t.val ≠ 0 := by omega
  rw [PhiS0_castSucc V c t, PhiS0_pos V c _ _ hz]
  iintro ⟨⟨⟨HS, HR⟩, Hg⟩, Ho, ⟨%d0, H0⟩, ⟨%d1, H1⟩, ⟨%d2, H2⟩, ⟨%d3, H3⟩⟩
  iapply (kernelRun0_F c (grid0.coords t) _ _ _ _ _ _ _ _ _ _ ((hcond0_0 t).mpr h17) (fun h => (hcond0_1 t).mp h h17) (fun h => h0 ((hcond0_2 t).mp h)) ((hcond0_3 t).mpr h0) ((hcond0_4 t).mpr h15) (iblk0 V c 0 t) (iblk0 V c 1 t) (accCol V c (t.val - 1) (Nat.lt_of_le_of_lt (Nat.sub_le _ _) t.isLt)) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The body at any point: the three residues of the point's number pick the control case. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 256 := lt_of_lt_of_eq t.isLt (show cfg0.N = 256 from N_0)
  by_cases h17 : t.val % 17 = 0
  · by_cases h0 : t.val % 16 = 0
    · exact sound_body0_A V c t h17 h0 (by omega)
    · by_cases h15 : t.val % 16 = 15
      · exact sound_body0_F V c t h17 h0 h15
      · exact sound_body0_E V c t h17 h0 h15
  · by_cases h0 : t.val % 16 = 0
    · exact sound_body0_D V c t h17 h0 (by omega)
    · by_cases h15 : t.val % 16 = 15
      · exact sound_body0_C V c t h17 h0 h15
      · exact sound_body0_B V c t h17 h0 h15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Gen

end
-- ==== Proof.Bits.Body1.lean ====
/-
  Region 1's body: at every grid point the scaling kernel, run on its three input tiles, leaves in the output
  window's staging buffer the tile scaled entry by entry by its row's and its column's factor.
-/
import proofs.«155517_j2216203125144_2_alg».proof.Proof.Bits.RegionData
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its tile at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the row factors) is fetched only at the first tile of each tile-row; in between its block index
    does not move, so its buffer still holds this point's block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the column factors) holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's accesses: each buffer whole, through the rectangle at offset zero of the buffer's own sizes -/

theorem hz1 : (![0, 0] : Fin 2 → Nat) = fun _ => 0 := funext fun a => by fin_cases a <;> rfl

abbrev r1_0 : Rect S1024x1024 := Rect.unit (s := S1024x1024) ![0, 0] S1024x1024.size inb_S1024x1024_S1024x1024_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0

/-- The one store covers the output buffer. -/
theorem cover1_3 (p0 : Vec F S1024x1024 .f32) (y : S1024x1024.Idx) :
    ∃ pc ∈ ([⟨r1_0, p0⟩] : List (View.Piece (Elt F) S1024x1024 .f32)), y ∈ pc.1.set :=
  ⟨_, List.mem_singleton_self _, View.mem_set_unit_zero (S := S1024x1024) hz1 inb_S1024x1024_S1024x1024_0_0 y⟩

/-! ## The body's triple -/

set_option maxHeartbeats 1000000 in
/-- The kernel body on whole staging memrefs, the inputs' at read contents `x0`, `x1`, `x2` and the output's at
    anything, runs to the continuation holding the inputs' as they were and the output's at the scaled tile. -/
theorem sound_kernel1 (c : Dev nD) (E : Set ℕ) (i : grid1.Coords)
    (arg2 : Memref sig .tc .vmem S1024x1024 .f32) (harg2 : arg2.IsWhole)
    (arg3 : Memref sig .tc .vmem S1024x1 .f32) (harg3 : arg3.IsWhole)
    (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1 .f32) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E (cc1__normalize_kernel i arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_3 _), View.canon_unit_zero (S := S1024x1024) hz1]
  have e0 : View.readAt (Elt F) arg2.view r1_0.toLoadRect f0 = View.read (Elt F) arg2.view f0 :=
    View.ld_unit_zero (S := S1024x1024) hz1 inb_S1024x1024_S1024x1024_0_0 _
  have e1 : View.readAt (Elt F) arg3.view r1_1.toLoadRect f1 = View.read (Elt F) arg3.view f1 :=
    View.ld_unit_zero (S := S1024x1) hz1 inb_S1024x1_S1024x1_0_0 _
  have e2 : View.readAt (Elt F) arg4.view r1_2.toLoadRect f2 = View.read (Elt F) arg4.view f2 :=
    View.ld_unit_zero (S := S1x1024) hz1 inb_S1x1024_S1x1024_0_0 _
  rw [e0, e1, e2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their tiles, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Gen

end
-- ==== Proof.Bits.RegionsRun.lean ====
/-
  The run of @main over its three items — region 0, the host reshape, region 1 — with the buffers' contents at the
  item boundaries as explicit valuations: at launch the memory; after region 0 its two output arrays at what the
  pipeline's write-backs leave; after the reshape the column re-read as a row; after region 1 its output array at what
  its write-backs leave.  The argument array is never written.
-/
import proofs.«155517_j2216203125144_2_alg».proof.Proof.Bits.RegionData
import proofs.«155517_j2216203125144_2_alg».proof.Proof.Gen.Kernel.Regions
import Idealize.ShloMosaic.Lib.StableHlo.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at the item boundaries -/

section Run
variable (m : (ℓ : Loc nD τ sig) → Buf (Elt F) ℓ)

/-- Core `c`'s buffers at launch. -/
abbrev Wa (c : Dev nD) : Valuation τ sig (Elt F) := fun b => m (c, b)
/-- The same read at the TensorCore's references (what region 0's proof data take). -/
abbrev Va : (c : Dev nD) → (b : Ref sig .tc) → Buf (Elt F) ((c : Thread nD τ).loc b) := fun c b => Wa m c (Proc.devRef .tc b)
/-- After region 0: its two output arrays at what the write-backs leave, every other buffer as launched. -/
def Wb (c : Dev nD) : Valuation τ sig (Elt F) :=
  Function.update (Function.update (Wa m c) main_v0_0 ((dat0 (Va m) c).arrAt 2 cfg0.N)) main_v0_1 ((dat0 (Va m) c).arrAt 3 cfg0.N)
/-- After the host reshape. -/
abbrev Wc (c : Dev nD) : Valuation τ sig (Elt F) := StableHlo.after hostOps1 (Wb m c)
/-- The same read at the TensorCore's references (what region 1's proof data take). -/
abbrev Vc : (c : Dev nD) → (b : Ref sig .tc) → Buf (Elt F) ((c : Thread nD τ).loc b) := fun c b => Wc m c (Proc.devRef .tc b)
/-- After region 1: its output array at what the write-backs leave, every other buffer as it was. -/
def Wd (c : Dev nD) : Valuation τ sig (Elt F) :=
  Function.update (Wc m c) main_v2 ((dat1 (Vc m) c).arrAt 3 cfg1.N)
/-- The same read at the TensorCore's references. -/
abbrev Vd : (c : Dev nD) → (b : Ref sig .tc) → Buf (Elt F) ((c : Thread nD τ).loc b) := fun c b => Wd m c (Proc.devRef .tc b)

theorem Wb_v0_0 (c : Dev nD) : Wb m c (Proc.devRef .tc main_v0_0) = (dat0 (Va m) c).arrAt 2 cfg0.N := by
  unfold Wb
  rw [Function.update_of_ne (StableHlo.devRef_ne_of_ne (by decide) : (Proc.devRef .tc main_v0_0 : DevRef τ sig) ≠ Proc.devRef .tc main_v0_1)]
  exact Function.update_self ..
theorem Wb_v0_1 (c : Dev nD) : Wb m c (Proc.devRef .tc main_v0_1) = (dat0 (Va m) c).arrAt 3 cfg0.N := by
  unfold Wb; exact Function.update_self ..
theorem Wb_of (c : Dev nD) (r : Ref sig .tc) (h : r ∉ ([main_v0_0, main_v0_1] : List (Ref sig .tc))) : Wb m c (Proc.devRef .tc r) = Wa m c (Proc.devRef .tc r) := by
  unfold Wb
  simp only [Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem Wc_of (c : Dev nD) (r : Ref sig .tc) (h : r ∉ hostOps1_W) : Wc m c (Proc.devRef .tc r) = Wb m c (Proc.devRef .tc r) :=
  StableHlo.after_of_writes_sub hostOps1 _ hostOps1_writes h
theorem Wd_v2 (c : Dev nD) : Wd m c (Proc.devRef .tc main_v2) = (dat1 (Vc m) c).arrAt 3 cfg1.N := by
  unfold Wd; exact Function.update_self ..
theorem Wd_of (c : Dev nD) (r : Ref sig .tc) (h : r ∉ ([main_v2] : List (Ref sig .tc))) : Wd m c (Proc.devRef .tc r) = Wc m c (Proc.devRef .tc r) := by
  unfold Wd
  simp only [Function.update_of_ne (StableHlo.devRef_ne_of_ne (List.ne_of_not_mem_cons h) : (Proc.devRef .tc r : DevRef τ sig) ≠ Proc.devRef .tc main_v2)]

/-! ## What the later items read -/

theorem Va_main_arg0 (c : Dev nD) : Va m c main_arg0 = m ((c : Thread nD τ).loc main_arg0) := rfl
theorem Vc_main_v0_0 (c : Dev nD) : Vc m c main_v0_0 = (dat0 (Va m) c).arrAt 2 cfg0.N :=
  (Wc_of m c main_v0_0 (by decide)).trans (Wb_v0_0 m c)
theorem Vc_main_v0_1 (c : Dev nD) : Vc m c main_v0_1 = (dat0 (Va m) c).arrAt 3 cfg0.N :=
  (Wc_of m c main_v0_1 (by decide)).trans (Wb_v0_1 m c)
theorem Vc_main_arg0 (c : Dev nD) : Vc m c main_arg0 = m ((c : Thread nD τ).loc main_arg0) :=
  (Wc_of m c main_arg0 (by decide)).trans ((Wb_of m c main_arg0 (by decide)).trans rfl)
theorem Vd_main_arg0 (c : Dev nD) : Vd m c main_arg0 = m ((c : Thread nD τ).loc main_arg0) :=
  (Wd_of m c main_arg0 (by decide)).trans (Vc_main_arg0 m c)

end Run

/-! ## The proof data family and the thread state -/

section Records
variable (m : (ℓ : Loc nD τ sig) → Buf (Elt F) ℓ)

/-- Every pipeline's proof data, each at its region's entry contents. -/
def pdatsR : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
/-- No core owes another anything: no level is assigned. -/
abbrev LR : GSem nD τ sig → Finset Unit := fun _ => ∅
abbrev lvR : GSem nD τ sig → Unit → ℕ := fun _ _ => 0
/-- What rides beside the buffers through every item: the core's generator register at some state and the core
    owing nothing. -/
abbrev Rest (c : Dev nD) : sProp 𝕄 := iprop((∃ r, prngReg c r) ∗ ∃ W, owes (c : Thread nD τ) (0 : CellTallies nD τ sig Unit) W)
/-- The host reshape as a segment over the unscoped references from the contents region 0 leaves. -/
abbrev hseg1 : Pipeline.HostSeg (Name := ℕ) (U := UR sig nD τ) (pcfgs (F := F)) defs₀ Variants.none LR lvR :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wb m) Rest
/-- An unscoped TensorCore reference is among those the thread state holds. -/
theorem mem_ucR (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register
    at some state. -/
abbrev TnR (c : Dev nD) : sProp 𝕄 := iprop(StableHlo.held (c : Thread nD τ) (Pipeline.ucRefs τ sig) (Wd m c) ∗ ∃ r, prngReg c r)

/-- At region 1's exit each of its arrays holds what the pipeline leaves: an input as entered, the output the
    write-backs folded. -/
theorem hF1 (c : Dev nD) : ∀ w : Fin cfg1.W, (dat1 (Vc m) c).arrAt w cfg1.N = Vd m c (Pipeline.arrRef spec1 w)
  | ⟨0, _⟩ => (((dat1 (Vc m) c).arrAt_in 0 rfl _).trans (A_eq1 (Vc m) c 0)).trans (Wd_of m c main_v0_0 (by decide)).symm
  | ⟨1, _⟩ => (((dat1 (Vc m) c).arrAt_in 1 rfl _).trans (A_eq1 (Vc m) c 1)).trans (Wd_of m c main_v0_1 (by decide)).symm
  | ⟨2, _⟩ => (((dat1 (Vc m) c).arrAt_in 2 rfl _).trans (A_eq1 (Vc m) c 2)).trans (Wd_of m c main_v1 (by decide)).symm
  | ⟨3, _⟩ => (Wd_v2 m c).symm
theorem hrest1 (c : Dev nD) : ∀ b, b ∉ Finset.univ.image (Pipeline.arrRef spec1) → Vd m c b = Vc m c b :=
  fun b hb => Wd_of m c b fun h => hb (Finset.mem_image.mpr ⟨3, Finset.mem_univ _, (List.mem_singleton.mp h).symm⟩)

-- a library lemma stated over the pinned configuration unifies with the printed one only when unification may unfold
-- plain definitions in a metavariable's type
set_option backward.isDefEq.respectTransparency.types false in
/-- REGION 1 over the thread state: entered from every unscoped buffer at `Wc`, left at `Wd`.  Its arrays are split
    out of the unscoped buffers and put back at the exit contents; the generator register goes into the class
    invariant and comes out; nothing is owed; the kernel has no semaphore of its own. -/
def reg1 (hb1 : ∀ (V : (c : Dev nD) → (b : Ref sig .tc) → Buf (Elt F) ((c : Thread nD τ).loc b)) (c : Dev nD),
      BodyObligation (dat1 (F := F) V c) (defs₀ (F := F)) Variants.none () Set.univ) :
    Pipeline.RegionSeg (pcfgs (F := F)) adm (pdatsR m) () defs₀ Variants.none LR lvR 1 where
  win := launch1.win.to₀
  block_pos := launch1.block_pos
  stage_whole := launch1.stage_whole
  K := PEmpty
  osem k := k.elim
  ho := Pipeline.OwnSemFacts.none _
  hbody c := (hb1 (Vc m) c).loose
  hwaits := Pipeline.hwaits_of_owed_zero _ _ _ _ LR lvR 1 fun _ _ => rfl
  pre c := iprop(StableHlo.held (c : Thread nD τ) (Pipeline.ucRefs τ sig) (Wc m c) ∗ Rest c)
  post c := iprop(TnR m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdatsR m) launch1.win launch1.arr_whole c
      ((pdatsR m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsR m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsR m) ((pdatsR m 1 c).share_full fun _ => rfl)
      (Vc m c) (Vd m c) ((pdatsR m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order: region 0, the host reshape, region 1. -/
abbrev segsR (R0 : Pipeline.RegionSeg (pcfgs (F := F)) adm (pdatsR m) () defs₀ Variants.none LR lvR 0)
    (R1 : Pipeline.RegionSeg (pcfgs (F := F)) adm (pdatsR m) () defs₀ Variants.none LR lvR 1) :
    List (Pipeline.Seg (pcfgs (F := F)) adm (pdatsR m) () defs₀ Variants.none LR lvR) :=
  [ .region R0, .host (hseg1 m), .region R1 ]

-- the launch theorem's implicit arguments are found by unifying its conclusion with this one, which takes unfolding
-- plain definitions in a metavariable's type
set_option backward.isDefEq.respectTransparency.types false in
/-- THE RUN, given region 0's record entered from the launch contents and left at `Wb`: from any memory with zero
    counters every weakly fair execution of @main terminates, and every final memory holds region 1's output array
    at what its write-backs leave and the argument as launched. -/
theorem run_of_reg0 (hb1 : ∀ (V : (c : Dev nD) → (b : Ref sig .tc) → Buf (Elt F) ((c : Thread nD τ).loc b)) (c : Dev nD),
      BodyObligation (dat1 (F := F) V c) (defs₀ (F := F)) Variants.none () Set.univ)
    (R0 : Pipeline.RegionSeg (pcfgs (F := F)) adm (pdatsR m) () defs₀ Variants.none LR lvR 0)
    (hpre0 : ∀ c : Dev nD, iprop(StableHlo.held (c : Thread nD τ) (Pipeline.ucRefs τ sig) (Wa m c) ∗ Rest c) ⊢ R0.pre c)
    (hpost0 : ∀ c : Dev nD, R0.post c ⊢ iprop(StableHlo.held (c : Thread nD τ) (Pipeline.ucRefs τ sig) (Wb m c) ∗ Rest c))
    (ρ : Dev nD → PrngReg) :
    θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)) :=
  Pipeline.θ_run_regions_kit (pcfgs (F := F)) adm (pdatsR m) () cellOf_inj emb₁ defs₀ Variants.none LR lvR m ρ main (segsR m R0 (reg1 m hb1))
    (fun c Q => by
      rewrite [main_chain c, Pipeline.Seg.run_eq_chain,
        show (segsR m R0 (reg1 m hb1)).map Pipeline.Seg.prog = [
          Prog.lift (.customCall (Pipeline.entry 0) ()),
          StableHlo.seq hostOps1,
          Prog.lift (.customCall (Pipeline.entry 1) ()) ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ Rest c)) (Tₙ := TnR m)
    (hch := ⟨hpre0, fun c => hpost0 c, fun _ => .rfl, fun _ => .rfl⟩)
    (hinit := by
      refine Pipeline.initEach LR lvR fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c =>
      ⟨(h c _ (mem_ucR main_v2 (by decide))).trans (Wd_v2 m c),
       (h c _ (mem_ucR main_arg0 (by decide))).trans (Vd_main_arg0 m c)⟩)

end Records

/-! ## Region 0's arrays among the unscoped buffers

Two of region 0's windows read one array, so its arrays are not distinct buffers: the unscoped buffers are listed one
by one, the argument's points-to split between the two input windows at entry and rejoined at exit. -/

section Shared
variable (c : Dev nD)

/-- The core's unscoped buffers, one by one. -/
theorem unscopedBufs_list (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)
          ∗ (((c : Thread nD τ).loc main_v2) ↦{fullShare} V main_v2)) := by
  unfold unscopedBufs
  exact bigSep_eq_bigSepL_of_eq [main_arg0, main_v0_0, main_v0_1, main_v1, main_v2] (by decide) (by decide) _

/-- Region 0's arrays, window by window: the argument at half a share twice, the two outputs whole. -/
theorem arrays0_list (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)) := by
  unfold Dat.arrays
  rw [bigSep_W0, (arr_whole0 0).set_eq_univ, (arr_whole0 2).set_eq_univ, (arr_whole0 3).set_eq_univ]
  rfl

end Shared

section Shared0
variable (c : Dev nD)

/-- ENTRY: the unscoped buffers at `V` are region 0's arrays at any contents that read `V` — the argument's buffer
    halved between the two input windows — and the two buffers no window of region 0 touches. -/
theorem arrays0_of_unscopedBufs (V : (c : Dev nD) → (b : Ref sig .tc) → Buf (Elt F) ((c : Thread nD τ).loc b))
    (G : (w : Fin cfg0.W) → Buf (Elt F) ((cfg0.win w).arr.view.loc (c : Thread nD τ)))
    (h0 : G 0 = V c main_arg0) (h1 : G 1 = V c main_arg0) (h2 : G 2 = V c main_v0_0) (h3 : G 3 = V c main_v0_1) :
    (unscopedBufs c (V c) : sProp 𝕄)
      ⊢ iprop((dat0 V c).arrays G ∗ Pipeline.unscopedRest (Ix := Unit) (Name := ℕ) (U := UR sig nD τ) (Lvl := ℕ) spec0 c (V c)) := by
  rw [unscopedBufs_list, unscopedRest0_eq, arrays0_list, h0, h1, h2, h3]
  iintro ⟨Harg, Hv00, Hv01, Hv1, Hv2⟩
  ihave H := (pointsTo_share (PosShare.mem_left_op_right fullShare)).1 $$ Harg
  icases H with ⟨Hl, Hr⟩
  isplitl [Hl Hr Hv00 Hv01]
  · isplitl [Hl]; · iexact Hl
    isplitl [Hr]; · iexact Hr
    isplitl [Hv00]; · iexact Hv00
    iexact Hv01
  · isplitl [Hv1]; · iexact Hv1
    iexact Hv2

/-- EXIT: region 0's arrays at contents `G` — both input windows holding the argument's buffer at one contents — and
    the two untouched buffers at `V` are the unscoped buffers at any valuation `V'` that has the arrays at `G` and
    agrees with `V` off them. -/
theorem unscopedBufs_of_arrays0 (V : (c : Dev nD) → (b : Ref sig .tc) → Buf (Elt F) ((c : Thread nD τ).loc b))
    (V' : (b : Ref sig .tc) → Buf (Elt F) ((c : Thread nD τ).loc b))
    (G : (w : Fin cfg0.W) → Buf (Elt F) ((cfg0.win w).arr.view.loc (c : Thread nD τ)))
    (h0 : G 0 = V' main_arg0) (h1 : G 1 = V' main_arg0) (h2 : G 2 = V' main_v0_0) (h3 : G 3 = V' main_v0_1)
    (hv1 : V c main_v1 = V' main_v1) (hv2 : V c main_v2 = V' main_v2) :
    iprop((dat0 V c).arrays G ∗ Pipeline.unscopedRest (Ix := Unit) (Name := ℕ) (U := UR sig nD τ) (Lvl := ℕ) spec0 c (V c))
      ⊢ (unscopedBufs c V' : sProp 𝕄) := by
  rw [unscopedBufs_list, unscopedRest0_eq, arrays0_list, h0, h1, h2, h3, hv1, hv2]
  iintro ⟨⟨Hl, Hr, Hv00, Hv01⟩, Hv1, Hv2⟩
  isplitl [Hl Hr]
  · iapply (pointsTo_share (PosShare.mem_left_op_right fullShare)).2
    isplitl [Hl]; · iexact Hl
    iexact Hr
  isplitl [Hv00]; · iexact Hv00
  isplitl [Hv01]; · iexact Hv01
  isplitl [Hv1]; · iexact Hv1
  iexact Hv2

end Shared0

section Region0
variable (m : (ℓ : Loc nD τ sig) → Buf (Elt F) ℓ)

/-- At region 0's exit each of its arrays holds what the pipeline leaves: the argument as entered (under both input
    windows), each output the write-backs folded. -/
theorem hF0_0 (c : Dev nD) : (dat0 (Va m) c).arrAt 0 cfg0.N = Wb m c (Proc.devRef .tc main_arg0) :=
  (((dat0 (Va m) c).arrAt_in 0 rfl _).trans (A_eq0 (Va m) c 0)).trans (Wb_of m c main_arg0 (by decide)).symm
theorem hF0_1 (c : Dev nD) : (dat0 (Va m) c).arrAt 1 cfg0.N = Wb m c (Proc.devRef .tc main_arg0) :=
  (((dat0 (Va m) c).arrAt_in 1 rfl _).trans (A_eq0 (Va m) c 1)).trans (Wb_of m c main_arg0 (by decide)).symm

-- a library lemma stated over the pinned configuration unifies with the printed one only when unification may unfold
-- plain definitions in a metavariable's type
set_option backward.isDefEq.respectTransparency.types false in
/-- REGION 0 over the thread state: entered from every unscoped buffer at the launch contents, left at `Wb`.  The
    argument's buffer is halved between the two input windows at entry and made whole again at exit; the generator
    register goes into the invariant and comes out; nothing is owed; the kernel has no semaphore of its own. -/
def reg0 (hb0 : ∀ (V : (c : Dev nD) → (b : Ref sig .tc) → Buf (Elt F) ((c : Thread nD τ).loc b)) (c : Dev nD),
      BodyObligation (dat0 (F := F) V c) (defs₀ (F := F)) Variants.none () Set.univ)
    (hin0 : ∀ (V : (c : Dev nD) → (b : Ref sig .tc) → Buf (Elt F) ((c : Thread nD τ).loc b)) (c : Dev nD),
      (Pipeline.ΦA spec0 c : sProp 𝕄) ⊢ (dat0 (F := F) V c).Φ 0)
    (hout0 : ∀ (V : (c : Dev nD) → (b : Ref sig .tc) → Buf (Elt F) ((c : Thread nD τ).loc b)) (c : Dev nD),
      (dat0 (F := F) V c).Φ (Fin.last cfg0.N) ⊢ (Pipeline.ΦA spec0 c : sProp 𝕄)) :
    Pipeline.RegionSeg (pcfgs (F := F)) adm (pdatsR m) () defs₀ Variants.none LR lvR 0 where
  win := winFacts₀0
  block_pos := block_pos0
  stage_whole := stage_whole0
  K := PEmpty
  osem k := k.elim
  ho := Pipeline.OwnSemFacts.none _
  hbody c := (hb0 (Va m) c).loose
  hwaits := Pipeline.hwaits_of_owed_zero _ _ _ _ LR lvR 0 fun _ _ => rfl
  pre c := iprop(StableHlo.held (c : Thread nD τ) (Pipeline.ucRefs τ sig) (Wa m c) ∗ Rest c)
  post c := iprop(StableHlo.held (c : Thread nD τ) (Pipeline.ucRefs τ sig) (Wb m c) ∗ Rest c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := arrays0_of_unscopedBufs c (Va m) ((pdatsR m 0 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := unscopedBufs_of_arrays0 c (Va m) (fun b => Wb m c (Proc.devRef .tc b)) ((pdatsR m 0 c).arrAt · cfg0.N)
      (hF0_0 m c) (hF0_1 m c) (Wb_v0_0 m c).symm (Wb_v0_1 m c).symm (Wb_of m c main_v1 (by decide)).symm (Wb_of m c main_v2 (by decide)).symm
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- THE RUN of @main over its three items, from the two regions' body obligations and region 0's invariant at its two
    ends: from any memory with zero counters every weakly fair execution terminates, and every final memory holds region
    1's output array at what its write-backs leave and the argument as launched. -/
theorem run_value (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hin0 : ∀ (V : (c : Dev nD) → (b : Ref sig .tc) → Buf (Elt F) ((c : Thread nD τ).loc b)) (c : Dev nD),
      (Pipeline.ΦA spec0 c : sProp 𝕄) ⊢ (dat0 (F := F) V c).Φ 0)
    (hout0 : ∀ (V : (c : Dev nD) → (b : Ref sig .tc) → Buf (Elt F) ((c : Thread nD τ).loc b)) (c : Dev nD),
      (dat0 (F := F) V c).Φ (Fin.last cfg0.N) ⊢ (Pipeline.ΦA spec0 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)) :=
  run_of_reg0 m hb1 (reg0 m hb0 hin0 hout0) (fun _ => .rfl) (fun _ => .rfl) ρ

end Region0

/-! ## The reshape, read back -/

section Reshape
variable (m : (ℓ : Loc nD τ sig) → Buf (Elt F) ℓ)

/-- Region 1's third window reads the column region 0 wrote, re-read as a row. -/
theorem Vc_main_v1 (c : Dev nD) :
    (Vc m c main_v1 : S1x8192.Idx → Elt F .f32)
      = shapeCast S1x8192 ((dat0 (Va m) c).arrAt 3 cfg0.N : S8192x1.Idx → Elt F .f32) shapeCasts_S8192x1_S1x8192 := by
  show StableHlo.after hostOps1 (Wb m c) (Proc.devRef .tc main_v1) = _
  after_results
  rw [Wb_v0_1]
  rfl

end Reshape

end Cert.Kernel.Gen

end
-- ==== Proof.Spec.lean ====
/-
  The normalised adjacency matrix as ONE function of the input matrix, over the extended reals.

  With A[r,s] = 1 on the diagonal and max(adj[r,s], adj[s,r]) off it, and d[r] = (Σ_s A[r,s])^(-1/2), the result is
  (A[r,s] · d[r]) · d[s].  Both programs compute this function: the reference directly, the kernel tile by tile with
  each row's sum accumulated over sixteen column tiles of width 512.
-/
import Idealize.ShloMosaic.PureOps.Ideal
import Idealize.ShloMosaic.Lib.ValueIdx

noncomputable section

namespace Cert.Spec

open Idealize.ShloMosaic Idealize.ShloMosaic.ValueIdx

/-- The index type of an 8192 × 8192 matrix. -/
abbrev MIdx : Type := (⟨2, ![8192, 8192]⟩ : Shape).Idx

/-- The float word of 1. -/
abbrev one : EReal := Ideal.ofBits .f32 0x3F800000#32
/-- The float word of 0. -/
abbrev zero : EReal := Ideal.ofBits .f32 0x00000000#32

/-- The symmetrised matrix with unit diagonal. -/
def sym (adj : MIdx → EReal) (r s : Fin 8192) : EReal :=
  if r.val = s.val then one else max (adj (ix2 r s)) (adj (ix2 s r))

/-- A row's sum. -/
def deg (adj : MIdx → EReal) (r : Fin 8192) : EReal := ∑ s : Fin 8192, sym adj r s

/-- Its reciprocal square root. -/
def dinv (adj : MIdx → EReal) (r : Fin 8192) : EReal := Ideal.rsqrt (deg adj r)

/-- The normalised matrix. -/
def G (adj : MIdx → EReal) : MIdx → EReal := fun i => sym adj (i 0) (i 1) * dinv adj (i 0) * dinv adj (i 1)

/-- Column `s` of a row split as tile `s / 512`, lane `s % 512`. -/
def colEquiv : Fin 16 × Fin 512 ≃ Fin 8192 where
  toFun p := ⟨p.1.val * 512 + p.2.val, by have := p.1.isLt; have := p.2.isLt; omega⟩
  invFun s := (⟨s.val / 512, by have := s.isLt; omega⟩, ⟨s.val % 512, Nat.mod_lt _ (by decide)⟩)
  left_inv p := by
    have h1 := p.1.isLt; have h2 := p.2.isLt
    refine Prod.ext (Fin.ext ?_) (Fin.ext ?_)
    · show (p.1.val * 512 + p.2.val) / 512 = p.1.val; omega
    · show (p.1.val * 512 + p.2.val) % 512 = p.2.val; omega
  right_inv s := Fin.ext (by show s.val / 512 * 512 + s.val % 512 = s.val; omega)

/-- A row's sum, tile by tile: sums in the extended reals commute and associate. -/
theorem sum_tiles (f : Fin 8192 → EReal) :
    ∑ s : Fin 8192, f s = ∑ b : Fin 16, ∑ l : Fin 512, f ⟨b.val * 512 + l.val, by have := b.isLt; have := l.isLt; omega⟩ := by
  exact (Equiv.sum_comp colEquiv f).symm.trans (Fintype.sum_prod_type fun p => f (colEquiv p))

/-- The tile-by-tile sum as the kernel forms it: the first tile's sum, then each later tile's added on the right. -/
def partialDeg (f : Fin 8192 → EReal) : (n : ℕ) → n < 16 → EReal
  | 0, h => ∑ l : Fin 512, f ⟨0 * 512 + l.val, by have := l.isLt; omega⟩
  | n + 1, h => partialDeg f n (Nat.lt_of_succ_lt h) + ∑ l : Fin 512, f ⟨(n + 1) * 512 + l.val, by have := l.isLt; omega⟩

theorem partialDeg_eq (f : Fin 8192 → EReal) (n : ℕ) (h : n < 16) :
    partialDeg f n h = ∑ b ∈ Finset.univ.filter (fun b : Fin 16 => b.val ≤ n), ∑ l : Fin 512, f ⟨b.val * 512 + l.val, by have := b.isLt; have := l.isLt; omega⟩ := by
  induction n with
  | zero =>
    have : Finset.univ.filter (fun b : Fin 16 => b.val ≤ 0) = {(0 : Fin 16)} := by
      ext b
      simp only [Finset.mem_filter, Finset.mem_univ, true_and, Finset.mem_singleton, Fin.ext_iff]
      show b.val ≤ 0 ↔ b.val = 0
      omega
    rw [this, Finset.sum_singleton]; rfl
  | succ n ih =>
    have hs : Finset.univ.filter (fun b : Fin 16 => b.val ≤ n + 1)
        = insert (⟨n + 1, h⟩ : Fin 16) (Finset.univ.filter (fun b : Fin 16 => b.val ≤ n)) := by
      ext b; simp only [Finset.mem_filter, Finset.mem_univ, true_and, Finset.mem_insert, Fin.ext_iff]; omega
    rw [hs, Finset.sum_insert (by simp only [Finset.mem_filter, Finset.mem_univ, true_and]; omega), partialDeg, ih (Nat.lt_of_succ_lt h), add_comm]

theorem partialDeg_last (f : Fin 8192 → EReal) : partialDeg f 15 (by decide) = ∑ s : Fin 8192, f s := by
  rw [partialDeg_eq, sum_tiles]
  refine Finset.sum_congr ?_ fun _ _ => rfl
  ext b; simp only [Finset.mem_filter, Finset.mem_univ, true_and, iff_true]; have := b.isLt; omega

end Cert.Spec

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Value0Pay.lean ====
/-
  Region 0's arithmetic read at an index, over the extended reals: the symmetrised tile is the entrywise maximum of a
  tile and the transpose of its mirror tile (with ones where row = column, on a diagonal tile); a tile's row sums are
  plain sums over its 512 columns; the running column adds them; the published column is its reciprocal square root.
-/
import proofs.«155517_j2216203125144_2_alg».proof.Proof.Gen.KernelIdeal.Skeleton
import proofs.«155517_j2216203125144_2_alg».proof.Proof.Spec
import proofs.«155517_j2216203125144_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

set_option maxRecDepth 16384

noncomputable section

namespace Cert.KernelIdeal.Sym

open Idealize.ShloMosaic Idealize.ShloMosaic.TcCoe Idealize.ShloMosaic.ValueIdx
open Idealize.SL Idealize.SL.Sem
open Cert.KernelIdeal Cert.KernelIdeal.Gen

/-- The off-diagonal tile: entrywise maximum with the mirror tile transposed. -/
theorem pay1_apply (v0 v1 : Vec Ideal S512x512 .f32) (p q : Fin 512) :
    k0_pay1 (F := Ideal) v0 v1 (ix2 p q) = max (v0 (ix2 p q)) (v1 (ix2 q p)) := by
  unfold k0_pay1
  show max (v0 (ix2 p q)) (transpose S512x512 [1, 0] v1 transposes_S512x512_p1_0_S512x512 (ix2 p q)) = _
  exact congrArg (max _) (transpose_apply [1, 0] v1 transposes_S512x512_p1_0_S512x512 (ix2 p q) (ix2 q p) (fun b => match b with
    | ⟨0, _⟩ => rfl
    | ⟨1, _⟩ => rfl))

/-- Two coordinates below 512 are the same 32-bit word only when equal. -/
theorem word_eq_iff (p q : Fin 512) : BitVec.ofNat 32 p.val = BitVec.ofNat 32 q.val ↔ p.val = q.val := by
  constructor
  · intro h
    have := congrArg BitVec.toNat h
    rw [BitVec.toNat_ofNat, BitVec.toNat_ofNat, Nat.mod_eq_of_lt (by have := p.isLt; omega), Nat.mod_eq_of_lt (by have := q.isLt; omega)] at this
    exact this
  · intro h; rw [h]

/-- The diagonal tile: ones where row = column, the maximum elsewhere. -/
theorem pay2_apply (v0 v1 : Vec Ideal S512x512 .f32) (p q : Fin 512) :
    k0_pay2 (F := Ideal) v0 v1 (ix2 p q) = if p.val = q.val then Cert.Spec.one else max (v0 (ix2 p q)) (v1 (ix2 q p)) := by
  unfold k0_pay2
  show Scalar.select (IntOp.cmpi .eq (iota .tc S512x512 32 [0] iota_S512x512_d0_w32 (ix2 p q)) (iota .tc S512x512 32 [1] iota_S512x512_d1_w32 (ix2 p q)))
      (Cert.Spec.one) (k0_pay1 (F := Ideal) v0 v1 (ix2 p q)) = _
  rw [iota_single_apply, iota_single_apply, pay1_apply]
  show Scalar.select (IntOp.cmpi .eq (BitVec.ofNat 32 p.val) (BitVec.ofNat 32 q.val)) _ _ = _
  by_cases h : p.val = q.val
  · rw [if_pos h, IntOp.cmpi_eq.mpr ((word_eq_iff p q).mpr h), select_one]
  · rw [if_neg h, eq_zero_of_ne_one (fun e => h ((word_eq_iff p q).mp (IntOp.cmpi_eq.mp e))), select_zero]

/-- A tile's row sums: the sum over its 512 columns. -/
theorem pay3_apply (v : Vec Ideal S512x512 .f32) (p : Fin 512) (u : Fin 1) :
    k0_pay3 (F := Ideal) v (ix2 p u) = ∑ l : Fin 512, v (ix2 p l) := by
  unfold k0_pay3
  rw [shapeCast_self]
  refine (PhysLoss.shapeCast_a_a1_apply _ shapeCasts_S512_S512x1 p u).trans ?_
  refine (Ideal.multiReduction_add_single v 0x00000000#32 reduces_S512x512_S512 (.inl rfl) rfl (ix1 p)).trans ?_
  refine Finset.sum_congr rfl fun l _ => congrArg v ?_
  funext a; apply Fin.ext
  match a with
  | ⟨0, _⟩ => rfl
  | ⟨1, _⟩ => rfl

theorem pay4_apply (v : Vec Ideal S512x512 .f32) (p : Fin 512) (u : Fin 1) :
    k0_pay4 (F := Ideal) v (ix2 p u) = ∑ l : Fin 512, v (ix2 p l) := by
  unfold k0_pay4
  rw [shapeCast_self]
  exact pay3_apply v p u

theorem pay5_apply (v : Vec Ideal S512x512 .f32) (s : Vec Ideal S512x1 .f32) (p : Fin 512) (u : Fin 1) :
    k0_pay5 (F := Ideal) v s (ix2 p u) = s (ix2 p u) + ∑ l : Fin 512, v (ix2 p l) := by
  unfold k0_pay5
  rw [shapeCast_self]
  show s (ix2 p u) + k0_pay3 (F := Ideal) v (ix2 p u) = _
  rw [pay3_apply]

theorem pay6_apply (s : Vec Ideal S512x1 .f32) (p : Fin 512) (u : Fin 1) :
    k0_pay6 (F := Ideal) s (ix2 p u) = Ideal.rsqrt (s (ix2 p u)) := rfl

end Cert.KernelIdeal.Sym

end
-- ==== Proof.Value0.lean ====
/-
  What region 0 leaves in its two output arrays, over the extended reals: the symmetrised matrix with unit diagonal,
  and the column of reciprocal square roots of its row sums.  Tile (i, j) of the grid reads entries
  (512 i + p, 512 j + q) and their mirrors (512 j + q, 512 i + p); a tile is diagonal exactly when i = j, and then an
  entry is on the matrix diagonal exactly when p = q.  The running column after tile (i, j) holds, at row p, the sum
  of row 512 i + p over column tiles 0 … j; after tile (i, 15) that is the whole row's sum.
-/
import proofs.«155517_j2216203125144_2_alg».proof.Proof.RegionData
import proofs.«155517_j2216203125144_2_alg».proof.Proof.Value0Pay

set_option maxRecDepth 16384

noncomputable section

namespace Cert.KernelIdeal.Sym

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The input matrix as region 0 finds it. -/
abbrev adjOf (c : Dev nD) : Cert.Spec.MIdx → EReal := V c main_arg0

/-- Row (or column) `512 i + p` of the matrix. -/
abbrev rowOf (i : ℕ) (hi : i < 16) (p : Fin 512) : Fin 8192 := ⟨i * 512 + p.val, by have := p.isLt; omega⟩

/-- The tiles' block indices at point `t`: tile (t / 16, t % 16), its mirror, and the column's row tile. -/
theorem idx_facts0 : ∀ t : Fin cfg0.N, win0_0.index t (0 : Fin 2) = t.val / 16 ∧ win0_0.index t (1 : Fin 2) = t.val % 16
    ∧ win0_1.index t (0 : Fin 2) = t.val % 16 ∧ win0_1.index t (1 : Fin 2) = t.val / 16
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

theorem lt256 (t : Fin cfg0.N) : t.val < 256 := lt_of_lt_of_eq t.isLt (show cfg0.N = 256 from N_0)

/-- The tile window 0 stages at point `t`, entry by entry. -/
theorem blk0_apply (c : Dev nD) (t : Fin cfg0.N) (p q : Fin 512) :
    iblk0 V c 0 t (ix2 p q) = adjOf V c (ix2 (rowOf (t.val / 16) (by have := lt256 t; omega) p) (rowOf (t.val % 16) (Nat.mod_lt _ (by decide)) q)) := by
  obtain ⟨e0, e1, -⟩ := idx_facts0 t
  show V c main_arg0 (((cfg0.win 0).blk t).view.emb (ix2 p q)) = _
  refine congrArg (V c main_arg0) ?_
  funext a; apply Fin.ext
  match a with
  | ⟨0, _⟩ => show win0_0.index t (0 : Fin 2) * 512 + 1 * p.val = t.val / 16 * 512 + p.val; rw [e0]; omega
  | ⟨1, _⟩ => show win0_0.index t (1 : Fin 2) * 512 + 1 * q.val = t.val % 16 * 512 + q.val; rw [e1]; omega

/-- The mirror tile window 1 stages at point `t`, entry by entry. -/
theorem blk1_apply (c : Dev nD) (t : Fin cfg0.N) (p q : Fin 512) :
    iblk0 V c 1 t (ix2 p q) = adjOf V c (ix2 (rowOf (t.val % 16) (Nat.mod_lt _ (by decide)) p) (rowOf (t.val / 16) (by have := lt256 t; omega) q)) := by
  obtain ⟨-, -, e0, e1, -⟩ := idx_facts0 t
  show V c main_arg0 (((cfg0.win 1).blk t).view.emb (ix2 p q)) = _
  refine congrArg (V c main_arg0) ?_
  funext a; apply Fin.ext
  match a with
  | ⟨0, _⟩ => show win0_1.index t (0 : Fin 2) * 512 + 1 * p.val = t.val % 16 * 512 + p.val; rw [e0]; omega
  | ⟨1, _⟩ => show win0_1.index t (1 : Fin 2) * 512 + 1 * q.val = t.val / 16 * 512 + q.val; rw [e1]; omega

/-- The symmetrised tile at point `t` is the symmetrised matrix's tile. -/
theorem symTile_apply (c : Dev nD) (t : Fin cfg0.N) (p q : Fin 512) :
    symTile V c t (ix2 p q) = Cert.Spec.sym (adjOf V c) (rowOf (t.val / 16) (by have := lt256 t; omega) p) (rowOf (t.val % 16) (Nat.mod_lt _ (by decide)) q) := by
  have ht := lt256 t
  unfold symTile Cert.Spec.sym
  by_cases h : t.val % 17 = 0
  · rw [if_pos h, pay2_apply, blk0_apply, blk1_apply]
    exact if_congr (by show p.val = q.val ↔ t.val / 16 * 512 + p.val = t.val % 16 * 512 + q.val; have := p.isLt; have := q.isLt; omega) rfl rfl
  · rw [if_neg h, pay1_apply, blk0_apply, blk1_apply]
    rw [if_neg (by show ¬ (t.val / 16 * 512 + p.val = t.val % 16 * 512 + q.val); have := p.isLt; have := q.isLt; omega)]

/-- The tile-by-tile row sum does not depend on how its tile count is spelt. -/
theorem partialDeg_congr (f : Fin 8192 → EReal) {j j' : ℕ} (e : j = j') (h : j < 16) (h' : j' < 16) :
    Cert.Spec.partialDeg f j h = Cert.Spec.partialDeg f j' h' := by subst e; rfl

/-- THE RUNNING COLUMN: after point `n` (tile (n / 16, n % 16)) row `p` of the scratch column holds the sum of row
    `512 (n / 16) + p` of the symmetrised matrix over column tiles 0 … n % 16. -/
theorem accCol_apply (c : Dev nD) : ∀ (n : ℕ) (hn : n < cfg0.N) (p : Fin 512) (u : Fin 1),
    accCol V c n hn (ix2 p u)
      = Cert.Spec.partialDeg (fun s => Cert.Spec.sym (adjOf V c) (rowOf (n / 16) (by have h256 : n < 256 := lt256 ⟨n, hn⟩; omega) p) s)
          (n % 16) (Nat.mod_lt _ (by decide)) := by
  intro n
  induction n with
  | zero =>
    intro hn p u
    rw [accCol_start V c ⟨0, hn⟩ rfl, pay4_apply]
    show _ = Cert.Spec.partialDeg _ 0 _
    unfold Cert.Spec.partialDeg
    refine Finset.sum_congr rfl fun l _ => ?_
    rw [symTile_apply]
    rfl
  | succ n ih =>
    intro hn p u
    have hN : n + 1 < 256 := lt256 ⟨n + 1, hn⟩
    by_cases h : (n + 1) % 16 = 0
    · rw [accCol_start V c ⟨n + 1, hn⟩ h, pay4_apply, partialDeg_congr _ h _ (by decide)]
      unfold Cert.Spec.partialDeg
      refine Finset.sum_congr rfl fun l _ => ?_
      rw [symTile_apply]
      refine congrArg (Cert.Spec.sym (adjOf V c) _) (Fin.ext ?_)
      show (n + 1) % 16 * 512 + l.val = 0 * 512 + l.val
      rw [h]
    · rw [accCol_step V c ⟨n + 1, hn⟩ h, pay5_apply]
      have e : (n + 1) % 16 = n % 16 + 1 := by omega
      rw [partialDeg_congr _ e _ (by omega)]
      rw [Cert.Spec.partialDeg]
      have ihn := ih (Nat.lt_of_succ_lt hn) p u
      refine congrArg₂ (· + ·) ?_ ?_
      · refine ihn.trans ?_
        have e16 : n / 16 = (n + 1) / 16 := by omega
        congr 1
        funext s
        exact congrArg (fun r => Cert.Spec.sym (adjOf V c) r s) (Fin.ext (by show n / 16 * 512 + p.val = (n + 1) / 16 * 512 + p.val; rw [e16]))
      · refine Finset.sum_congr rfl fun l _ => ?_
        rw [symTile_apply]
        refine congrArg (Cert.Spec.sym (adjOf V c) _) (Fin.ext ?_)
        show (n + 1) % 16 * 512 + l.val = (n % 16 + 1) * 512 + l.val
        rw [e]

/-! ## The two output arrays -/

/-- The symmetrised matrix with unit diagonal, as an array. -/
def symArr (adj : Cert.Spec.MIdx → EReal) : S8192x8192.Idx → EReal := fun i => Cert.Spec.sym adj (i 0) (i 1)

/-- The reciprocal square roots of its row sums, as a column. -/
def dinvCol (adj : Cert.Spec.MIdx → EReal) : S8192x1.Idx → EReal := fun i => Cert.Spec.dinv adj (i 0)

/-- What point `t` writes back into the matrix is tile `t` of the symmetrised matrix. -/
theorem flushed2_eq (c : Dev nD) (t : Fin cfg0.N) :
    (dat0 V c).flushed 2 t = ((cfg0.win 2).blk t).view.read (Elt Ideal) (symArr (adjOf V c)) := by
  show (cfg0.win 2).cut (grid0.coords t) ((dat0 V c).after 2 t) = _
  rw [after0_2]
  funext j
  obtain ⟨p, q, rfl⟩ : ∃ (p q : Fin 512), j = ix2 p q := ⟨j 0, j 1, eq_ix2 j⟩
  show symTile V c t (ix2 p q) = symArr (adjOf V c) (((cfg0.win 2).blk t).view.emb (ix2 p q))
  rw [symTile_apply]
  obtain ⟨-, -, -, -, e0, e1, -⟩ := idx_facts0 t
  unfold symArr
  refine congrArg₂ (Cert.Spec.sym _) (Fin.ext ?_) (Fin.ext ?_)
  · show t.val / 16 * 512 + p.val = win0_2.index t (0 : Fin 2) * 512 + 1 * p.val; rw [e0]; omega
  · show t.val % 16 * 512 + q.val = win0_2.index t (1 : Fin 2) * 512 + 1 * q.val; rw [e1]; omega

theorem mem_blk2 (t : Fin cfg0.N) (i : S8192x8192.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0_0).slice (win0_2.rect t)).set ↔ _
  rw [View.set_slice_whole, Rect.mem_set_unit]
  exact Iff.rfl

/-- Every entry of the matrix lies in the tile of the point (i₀ / 512, i₁ / 512). -/
theorem cover2 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  refine ⟨⟨(i 0).val / 512 * 16 + (i 1).val / 512, by rw [show cfg0.N = 256 from N_0]; omega⟩, flush0_2 _, ?_⟩
  rw [mem_blk2]
  obtain ⟨-, -, -, -, e0, e1, -⟩ := idx_facts0 ⟨(i 0).val / 512 * 16 + (i 1).val / 512, by rw [show cfg0.N = 256 from N_0]; omega⟩
  intro a
  match a with
  | ⟨0, _⟩ =>
    show win0_2.index _ (0 : Fin 2) * 512 ≤ (i 0).val ∧ (i 0).val < win0_2.index _ (0 : Fin 2) * 512 + 512
    rw [e0]; dsimp only; omega
  | ⟨1, _⟩ =>
    show win0_2.index _ (1 : Fin 2) * 512 ≤ (i 1).val ∧ (i 1).val < win0_2.index _ (1 : Fin 2) * 512 + 512
    rw [e1]; dsimp only; omega

/-- REGION 0'S MATRIX: the symmetrised input with unit diagonal. -/
theorem final0_2 (c : Dev nD) : (dat0 V c).arrAt 2 cfg0.N = symArr (adjOf V c) :=
  (dat0 V c).arrAt_eq_of_cover 2 (symArr (adjOf V c)) (fun t _ => flushed2_eq V c t) cover2

/-- What the last point of tile-row `t / 16` writes back into the column: that row tile of the reciprocal square roots
    of the complete row sums. -/
theorem flushed3_eq (c : Dev nD) (t : Fin cfg0.N) (hf : t.val % 16 = 15) :
    (dat0 V c).flushed 3 t = ((cfg0.win 3).blk t).view.read (Elt Ideal) (dinvCol (adjOf V c)) := by
  show (cfg0.win 3).cut (grid0.coords t) ((dat0 V c).after 3 t) = _
  rw [after0_3]
  funext j
  obtain ⟨p, u, rfl⟩ : ∃ (p : Fin 512) (u : Fin 1), j = ix2 p u := ⟨j 0, j 1, eq_ix2 j⟩
  show k0_pay6 (F := Ideal) (accCol V c t.val t.isLt) (ix2 p u) = dinvCol (adjOf V c) (((cfg0.win 3).blk t).view.emb (ix2 p u))
  rw [pay6_apply, accCol_apply, partialDeg_congr _ hf _ (by decide), Cert.Spec.partialDeg_last]
  obtain ⟨-, -, -, -, -, -, e0, e1⟩ := idx_facts0 t
  unfold dinvCol Cert.Spec.dinv Cert.Spec.deg
  refine congrArg Ideal.rsqrt (Finset.sum_congr rfl fun s _ => congrArg (fun r => Cert.Spec.sym _ r s) (Fin.ext ?_))
  show t.val / 16 * 512 + p.val = win0_3.index t (0 : Fin 2) * 512 + 1 * p.val
  rw [e0]; omega

theorem mem_blk3 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_1).slice (win0_3.rect t)).set ↔ _
  rw [View.set_slice_whole, Rect.mem_set_unit]
  exact Iff.rfl

/-- Every entry of the column lies in the row tile written back at the last point of its tile-row. -/
theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  refine ⟨⟨(i 0).val / 512 * 16 + 15, by rw [show cfg0.N = 256 from N_0]; omega⟩, (flush0_3 _).mpr (by dsimp only; omega), ?_⟩
  rw [mem_blk3]
  obtain ⟨-, -, -, -, -, -, e0, e1⟩ := idx_facts0 ⟨(i 0).val / 512 * 16 + 15, by rw [show cfg0.N = 256 from N_0]; omega⟩
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 1 ≤ (i 1).val ∧ (i 1).val < win0_3.index _ (1 : Fin 2) * 1 + 1
    rw [e1]; omega

/-- REGION 0'S COLUMN: the reciprocal square roots of the symmetrised matrix's row sums. -/
theorem final0_3 (c : Dev nD) : (dat0 V c).arrAt 3 cfg0.N = dinvCol (adjOf V c) :=
  (dat0 V c).arrAt_eq_of_cover 3 (dinvCol (adjOf V c)) (fun t hf => flushed3_eq V c t ((flush0_3 t).mp hf)) cover3

end Cert.KernelIdeal.Sym

end
-- ==== Proof.Value1.lean ====
/-
  What region 1 leaves, at the ideal reals: the output array is the input array scaled entry by entry by its row's
  factor (a column array) and its column's factor (a row array).
-/
import proofs.«155517_j2216203125144_2_alg».proof.Proof.RegionData
import proofs.«155517_j2216203125144_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scale

open Cert.KernelIdeal Cert.KernelIdeal.Gen
open Idealize.ShloMosaic Idealize.ShloMosaic.TcCoe Idealize.ShloMosaic.ValueIdx Idealize.SL.Sem
open Idealize.ShloMosaic.Pipeline (Dat)

/-- The scaled array: entry (r, s) of `a` times row r's factor times column s's factor. -/
def scaled (a : S8192x8192.Idx → EReal) (dr : S8192x1.Idx → EReal) (dc : S1x8192.Idx → EReal) : S8192x8192.Idx → EReal :=
  fun i => a i * dr (ix2 (i 0) (0 : Fin 1)) * dc (ix2 (0 : Fin 1) (i 1))

/-- The body's payload at entry (p, q) of the tile: the tile's entry times the row tile's entry p times the column
    tile's entry q. -/
theorem pay1_apply (x0 : Vec Ideal S1024x1024 .f32) (x1 : Vec Ideal S1024x1 .f32) (x2 : Vec Ideal S1x1024 .f32) (p q : Fin 1024) :
    k1_pay1 x0 x1 x2 (ix2 p q) = x0 (ix2 p q) * x1 (ix2 p (0 : Fin 1)) * x2 (ix2 (0 : Fin 1) q) := by
  unfold k1_pay1
  simp only [shapeCast_self]
  refine (mulf_apply _ _ _).trans ?_
  refine congr (congrArg HMul.hMul ((mulf_apply _ _ _).trans ?_)) ?_
  · exact congrArg (x0 (ix2 p q) * ·) (PhysLoss.broadcastTo_a1_ab_apply x1 _ p q)
  · exact broadcastTo_1b_ab_apply x2 _ p q

/-- An entry of the scaled array from the three entries it is made of, wherever they are read. -/
theorem scaled_entry (A : S8192x8192.Idx → EReal) (DR : S8192x1.Idx → EReal) (DC : S1x8192.Idx → EReal)
    (i0 : S8192x8192.Idx) (i1 : S8192x1.Idx) (i2 : S1x8192.Idx) (i3 : S8192x8192.Idx)
    (h0 : i0 = i3) (h1 : i1 = ix2 (i3 0) (0 : Fin 1)) (h2 : i2 = ix2 (0 : Fin 1) (i3 1)) :
    A i0 * DR i1 * DC i2 = scaled A DR DC i3 := by
  subst h0 h1 h2; rfl

/-- The printed index maps, decided over the grid: the tile window and the output window move together, the row
    factors' window follows the tile-row, the column factors' window the tile-column. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every tile of the 8 × 8 tiling is some point's. -/
theorem idx_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

section Region
variable (V : (c : Dev nD) → (b : Ref sig .tc) → Buf (Elt Ideal) ((c : Thread nD τ).loc b))

/-- What point `t` writes back is tile `t` of the scaled array. -/
theorem flushed3_eq (c : Dev nD) (t : Fin cfg1.N) :
    (dat1 (F := Ideal) V c).flushed 3 t
      = ((cfg1.win 3).blk t).view.read (Elt Ideal) (scaled (V c main_v0_0) (V c main_v0_1) (V c main_v1)) := by
  show (cfg1.win 3).cut (grid1.coords t) ((dat1 V c).after 3 t) = _
  rw [after1_3]
  obtain ⟨e0, e1, e2, e3, e4, e5, e6, e7⟩ := idx_facts t
  funext j
  obtain ⟨p, q, rfl⟩ : ∃ (p q : Fin 1024), j = ix2 p q := ⟨j 0, j 1, eq_ix2 j⟩
  refine (pay1_apply _ _ _ p q).trans ?_
  refine scaled_entry (V c main_v0_0) (V c main_v0_1) (V c main_v1)
    (((cfg1.win 0).blk t).view.emb (ix2 p q)) (((cfg1.win 1).blk t).view.emb (ix2 p (0 : Fin 1)))
    (((cfg1.win 2).blk t).view.emb (ix2 (0 : Fin 1) q)) (((cfg1.win 3).blk t).view.emb (ix2 p q)) ?_ ?_ ?_
  · funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * q.val = win1_3.index t (1 : Fin 2) * 1024 + 1 * q.val; omega
  · funext a; apply Fin.ext
    match a with
    | ⟨0, _⟩ => show win1_1.index t (0 : Fin 2) * 1024 + 1 * p.val = win1_3.index t (0 : Fin 2) * 1024 + 1 * p.val; omega
    | ⟨1, _⟩ => show win1_1.index t (1 : Fin 2) * 1 + 1 * 0 = 0; omega
  · funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

/-- An entry of the array is in point `t`'s tile iff each coordinate is in the tile's range on its axis. -/
theorem mem_blk3 (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- Every entry (r, s) is in the tile of the point whose output tile is (r / 1024, s / 1024). -/
theorem cover3 (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The array region 1 leaves: the scaled array. -/
theorem final1 (c : Dev nD) :
    (dat1 (F := Ideal) V c).arrAt 3 cfg1.N = scaled (V c main_v0_0) (V c main_v0_1) (V c main_v1) :=
  (dat1 (F := Ideal) V c).arrAt_eq_of_cover 3 (scaled (V c main_v0_0) (V c main_v0_1) (V c main_v1))
    (fun t _ => flushed3_eq V c t) cover3

end Region

end Cert.KernelIdeal.Scale

end
-- ==== Proof.Bridge.lean ====
/-
  The two regions and the reshape between them compose to the normalised matrix: region 1 scales the symmetrised
  matrix A by the column d of reciprocal square roots of A's row sums, read once down the rows and once — through the
  reshape of the column [8192, 1] to the row [1, 8192], which keeps entry s at position s — across the columns.
-/
import proofs.«155517_j2216203125144_2_alg».proof.Proof.Value0
import proofs.«155517_j2216203125144_2_alg».proof.Proof.Value1

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Sym Cert.KernelIdeal.Scale

/-- The column [8192, 1] viewed as the row [1, 8192] keeps entry `s` at position `s`. -/
theorem reshape_col_row (x : S8192x1.Idx → EReal) (h : S8192x1.ShapeCasts S1x8192) (s : Fin 8192) :
    shapeCast S1x8192 x h (ix2 (0 : Fin 1) s) = x (ix2 s (0 : Fin 1)) :=
  shapeCast_apply x h _ _ (by
    rw [Shape.rowMajor_val_two, Shape.rowMajor_val_two]
    show s.val * 1 + 0 = 0 * 8192 + s.val
    omega)

/-- The symmetrised matrix scaled by its rows' and its columns' factors is the normalised matrix. -/
theorem scaled_eq_G (adj : Cert.Spec.MIdx → EReal) (dc : S1x8192.Idx → EReal)
    (hdc : ∀ s : Fin 8192, dc (ix2 (0 : Fin 1) s) = Cert.Spec.dinv adj s) :
    scaled (symArr adj) (dinvCol adj) dc = Cert.Spec.G adj := by
  funext i
  obtain ⟨r, s, rfl⟩ : ∃ (r s : Fin 8192), i = ix2 r s := ⟨i 0, i 1, eq_ix2 i⟩
  show symArr adj (ix2 r s) * dinvCol adj (ix2 r (0 : Fin 1)) * dc (ix2 (0 : Fin 1) s) = _
  rw [hdc s]
  rfl

end Cert.KernelIdeal.Bridge

end
-- ==== Proof.RefValue.lean ====
/-
  The reference program computes the normalised adjacency matrix.

  Reading the reference one stage at a time at an index (r, s): the symmetrised matrix with unit diagonal is
  max(adj[r,s], adj[s,r]) off the diagonal and 1 on it (the diagonal mask compares the two 32-bit coordinate words,
  which are equal exactly when the coordinates are, both being below 2^32); a row's degree is the plain sum of that
  row; the scale factor is its reciprocal square root; the result is (A[r,s] · d[r]) · d[s].
-/
import proofs.«155517_j2216203125144_2_alg».proof.Proof.Gen.ReferenceIdeal.Read
import proofs.«155517_j2216203125144_2_alg».proof.Proof.Spec
import Idealize.ShloMosaic.Lib.ValueIdx
import Idealize.ShloMosaic.Lib.Affine
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- Two coordinates below 8192 have equal 32-bit words exactly when they are equal; adding the zero word changes
    nothing. -/
theorem mask_iff (r s : Fin 8192) :
    IntOp.cmpi .eq (IntOp.addi (BitVec.ofNat 32 r.val) 0#32) (BitVec.ofNat 32 s.val) = 1#1 ↔ r.val = s.val := by
  rw [IntOp.cmpi_eq]
  show BitVec.ofNat 32 r.val + 0#32 = BitVec.ofNat 32 s.val ↔ _
  rw [BitVec.add_zero]
  constructor
  · intro h
    have h' := congrArg BitVec.toNat h
    simp only [BitVec.toNat_ofNat] at h'
    have hr := r.isLt
    have hs := s.isLt
    omega
  · intro h
    rw [h]

/-- The diagonal mask at (r, s) is set exactly on the diagonal. -/
theorem v6_ix2 (r s : Fin 8192) : val_main_v6 (F := Ideal) (ix2 r s) = 1#1 ↔ r.val = s.val := by
  rw [val_main_v6_apply, val_main_v5_apply, val_main_v2_apply, val_main_v4_apply, val_main_c_apply, val_main_v3_apply]
  exact mask_iff r s

/-- The transposed index of (r, s) is (s, r). -/
theorem idx_v0_ix2 (r s : Fin 8192) : idx_main_v0 (ix2 r s) = ix2 s r :=
  funext fun a => Fin.ext (by match a with | ⟨0, _⟩ => rfl | ⟨1, _⟩ => rfl)

/-- The symmetrised matrix with unit diagonal, at (r, s). -/
theorem v7_ix2 (x0 : (⟨S8192x8192, .f32⟩ : BufTy).Contents (Elt Ideal)) (r s : Fin 8192) :
    val_main_v7 (F := Ideal) x0 (ix2 r s) = Cert.Spec.sym x0 r s := by
  rw [val_main_v7_apply]
  unfold Cert.Spec.sym
  by_cases h : r.val = s.val
  · rw [if_pos h, (v6_ix2 r s).mpr h, select_one, val_main_call0_v0_apply, val_main_cst_apply]
    rfl
  · rw [if_neg h, eq_zero_of_ne_one (mt (v6_ix2 r s).mp h), select_zero, val_main_v1_apply, val_main_v0_apply,
      idx_v0_ix2]
    rfl

/-- Row r's reduction index at column k is (r, k). -/
theorem idx_v8_ix1 (r k : Fin 8192) : idx_main_v8 (ix1 r) k = ix2 r k :=
  funext fun a => Fin.ext (by match a with | ⟨0, _⟩ => rfl | ⟨1, _⟩ => rfl)

/-- A row's degree: the zero word is 0, so the reduction is the plain sum of the row. -/
theorem v8_ix1 (x0 : (⟨S8192x8192, .f32⟩ : BufTy).Contents (Elt Ideal)) (r : Fin 8192) :
    val_main_v8 (F := Ideal) x0 (ix1 r) = Cert.Spec.deg x0 r := by
  rw [val_main_v8_apply, val_main_cst_0_apply, Ideal.ofBits_def, Ideal.ofBits_zero_f32, zero_add]
  unfold Cert.Spec.deg
  refine Finset.sum_congr rfl fun k _ => ?_
  rw [idx_v8_ix1, v7_ix2]

/-- A row's scale factor. -/
theorem v9_ix1 (x0 : (⟨S8192x8192, .f32⟩ : BufTy).Contents (Elt Ideal)) (r : Fin 8192) :
    val_main_v9 (F := Ideal) x0 (ix1 r) = Cert.Spec.dinv x0 r := by
  rw [val_main_v9_apply, v8_ix1, Ideal.hostUnary_rsqrt_def]
  rfl

/-- The row factor broadcast over columns reads row r. -/
theorem idx_row_ix2 (r s : Fin 8192) : idx_main_v10 (idx_main_v11 (ix2 r s)) = ix1 r :=
  funext fun a => Fin.ext (by match a with | ⟨0, _⟩ => rfl)

/-- The column factor broadcast over rows reads row s. -/
theorem idx_col_ix2 (r s : Fin 8192) : idx_main_v13 (idx_main_v14 (ix2 r s)) = ix1 s :=
  funext fun a => Fin.ext (by match a with | ⟨0, _⟩ => rfl)

/-- The reference's result is the normalised adjacency matrix. -/
theorem ref_eq_G (x0 : (⟨S8192x8192, .f32⟩ : BufTy).Contents (Elt Ideal)) :
    Cert.ReferenceIdeal.Read.val_main_v15 (F := Ideal) x0 = Cert.Spec.G x0 := by
  funext i
  obtain ⟨r, s, rfl⟩ : ∃ (r s : Fin 8192), i = ix2 r s := ⟨i 0, i 1, eq_ix2 i⟩
  rw [val_main_v15_apply, val_main_v12_apply, val_main_v11_apply, val_main_v10_apply, val_main_v14_apply,
    val_main_v13_apply, idx_row_ix2, idx_col_ix2, v7_ix2, v9_ix1, v9_ix1]
  rfl

end Cert.ReferenceIdeal.RefValue

end
-- ==== Proof.Claims.lean ====
/-
  The claims.  Both programs end with the normalised matrix G(adj) of the one input matrix: the kernel program through
  its two regions and the reshape between them (the symmetrised matrix with unit diagonal and the column of reciprocal
  square roots of its row sums from region 0, scaled entry by entry in region 1), the reference through its host
  operations read one at a time.  The kernel sums each row tile by tile — sixteen sums of 512 entries added left to
  right — where the reference sums the row at once: sums in the extended reals commute and associate, so the two agree
  with no finiteness needed.  The three frames are the runs with the results dropped.
-/
import proofs.«155517_j2216203125144_2_alg».proof.Defs
import proofs.«155517_j2216203125144_2_alg».proof.Proof.Body0
import proofs.«155517_j2216203125144_2_alg».proof.Proof.Body1
import proofs.«155517_j2216203125144_2_alg».proof.Proof.RegionsRun
import proofs.«155517_j2216203125144_2_alg».proof.Proof.Bits.Body0
import proofs.«155517_j2216203125144_2_alg».proof.Proof.Bits.Body1
import proofs.«155517_j2216203125144_2_alg».proof.Proof.Bits.RegionsRun
import proofs.«155517_j2216203125144_2_alg».proof.Proof.Bridge
import proofs.«155517_j2216203125144_2_alg».proof.Proof.RefValue
import proofs.«155517_j2216203125144_2_alg».proof.Proof.Gen.ReferenceIdeal.Run
import proofs.«155517_j2216203125144_2_alg».proof.Proof.Gen.ReferenceIdeal.Read
import proofs.«155517_j2216203125144_2_alg».proof.Proof.Gen.Kernel
import proofs.«155517_j2216203125144_2_alg».proof.Proof.Gen.KernelIdeal
import proofs.«155517_j2216203125144_2_alg».proof.Proof.Gen.ReferenceIdeal
import proofs.«155517_j2216203125144_2_alg».proof.Proof.Gen.Pre_finite_inputs

noncomputable section

namespace Cert.Proof.Claims

open Idealize.ShloMosaic Idealize.ShloMosaic.TcCoe Idealize.ShloMosaic.ValueIdx Idealize.SL.Sem

/-- The kernel program's run at the word level: it terminates, and the argument ends as launched. -/
theorem frame_k : Cert.frame_Kernel := fun m ρ _ =>
  (θ_run Cert.Kernel.defs _ _).mono (fun _ h c => (h c).2)
    (Cert.Kernel.Gen.run_value (F := Bits) Cert.Kernel.Gen.body_obligation0 Cert.Kernel.Gen.body_obligation1
      Cert.Kernel.Gen.hin0 Cert.Kernel.Gen.hout0 m ρ)

/-- The same run read over the extended reals. -/
theorem frame_ki : Cert.frame_KernelIdeal := fun m ρ _ =>
  (θ_run Cert.KernelIdeal.defs _ _).mono (fun _ h c => (h c).2)
    (Cert.KernelIdeal.Gen.run_value (F := Ideal) Cert.KernelIdeal.Gen.body_obligation0 Cert.KernelIdeal.Gen.body_obligation1
      Cert.KernelIdeal.Gen.hin0 Cert.KernelIdeal.Gen.hout0 m ρ)

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen in
/-- What region 1 leaves in the result array is the normalised matrix of the launch contents of the argument. -/
theorem kernel_value (m : (ℓ : Loc Cert.KernelIdeal.nD Cert.KernelIdeal.τ Cert.KernelIdeal.sig) → Buf (Elt Ideal) ℓ) (c : Dev Cert.KernelIdeal.nD) :
    (dat1 (F := Ideal) (Vc m) c).arrAt 3 cfg1.N = Cert.Spec.G (m ((c.tc : Thread nD τ).loc main_arg0)) := by
  rw [Cert.KernelIdeal.Scale.final1, Vc_main_v0_0, Vc_main_v0_1, Cert.KernelIdeal.Sym.final0_2, Cert.KernelIdeal.Sym.final0_3]
  refine Cert.KernelIdeal.Bridge.scaled_eq_G _ _ fun s => ?_
  rw [Vc_main_v1, Cert.KernelIdeal.Sym.final0_3]
  exact Cert.KernelIdeal.Bridge.reshape_col_row _ _ s

/-- Both programs, from memories agreeing on the argument, end with the normalised matrix of that argument. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono (fun _ h c => ⟨(h c).1.trans (kernel_value m c), (h c).2⟩)
      (Cert.KernelIdeal.Gen.run_value (F := Ideal) Cert.KernelIdeal.Gen.body_obligation0 Cert.KernelIdeal.Gen.body_obligation1
        Cert.KernelIdeal.Gen.hin0 Cert.KernelIdeal.Gen.hout0 m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.ref_eq_G, hagree c]

end Cert.Proof.Claims

end
-- ==== Proof.lean ====
/-
  The certificate's claim: the three frames, the (empty) list of idealisation rewrites, and the equality of the two
  idealised programs' results over the extended reals, each proved in Proof/Claims.lean.
-/
import proofs.«155517_j2216203125144_2_alg».proof.Defs
import proofs.«155517_j2216203125144_2_alg».proof.Proof.Claims
import proofs.«155517_j2216203125144_2_alg».proof.Proof.Gen.Kernel
import proofs.«155517_j2216203125144_2_alg».proof.Proof.Gen.KernelIdeal
import proofs.«155517_j2216203125144_2_alg».proof.Proof.Gen.ReferenceIdeal
import proofs.«155517_j2216203125144_2_alg».proof.Proof.Gen.Pre_finite_inputs
import proofs.«155517_j2216203125144_2_alg».proof.Proof.Gen.ReferenceIdeal.Run
import proofs.«155517_j2216203125144_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
